-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x56x56 : Shape := ⟨4, ![16, 64, 56, 56]⟩
abbrev S_ : Shape := ⟨0, ![]⟩

class Facts : Prop where
  bcast_S_S16x64x56x56 : S_.BroadcastsInDim S16x64x56x56 (![] : Fin 0 → Fin S16x64x56x56.rank)
  reducesTo_S16x64x56x56_S_d0_1_2_3 : S16x64x56x56.ReducesTo [0, 1, 2, 3] S_
  h_S_ : 0 < S_.numel

variable [Facts]

def fn {F : FTy → Type} [FloatOps F] (main_arg0 : FVec F S16x64x56x56 .f32) (main_arg1 : FVec F S16x64x56x56 .f32) : IVec S_ 1 :=
  let main_v0 : FVec F S16x64x56x56 .f32 := Host.absf main_arg0
  let main_cst : FVec F S_ .f32 := constant S_ .f32 0x7F800000#32
  let main_v1 : FVec F S16x64x56x56 .f32 := broadcastInDim S16x64x56x56 ![] bcast_S_S16x64x56x56 main_cst
  let main_v2 : IVec S16x64x56x56 1 := cmpf .olt main_v0 main_v1
  let main_c : IVec S_ 1 := constantI S_ 1 1#1
  let main_v3 : IVec S_ 1 := (fun x v => Host.reduce IntOp.andi x v reducesTo_S16x64x56x56_S_d0_1_2_3 h_S_) main_v2 main_c
  let main_v4 : FVec F S16x64x56x56 .f32 := Host.absf main_arg1
  let main_cst_0 : FVec F S_ .f32 := constant S_ .f32 0x7F800000#32
  let main_v5 : FVec F S16x64x56x56 .f32 := broadcastInDim S16x64x56x56 ![] bcast_S_S16x64x56x56 main_cst_0
  let main_v6 : IVec S16x64x56x56 1 := cmpf .olt main_v4 main_v5
  let main_c_1 : IVec S_ 1 := constantI S_ 1 1#1
  let main_v7 : IVec S_ 1 := (fun x v => Host.reduce IntOp.andi x v reducesTo_S16x64x56x56_S_d0_1_2_3 h_S_) main_v6 main_c_1
  let main_v8 : IVec S_ 1 := andi main_v3 main_v7
  main_v8
-- ==== Kernel.lean ====
abbrev S16x64x56x56 : Shape := ⟨4, ![16, 64, 56, 56]⟩
abbrev S16x64x9x56x56 : Shape := ⟨5, ![16, 64, 9, 56, 56]⟩
abbrev S1x32x56x56 : Shape := ⟨4, ![1, 32, 56, 56]⟩
abbrev S1x32x9x56x56 : Shape := ⟨5, ![1, 32, 9, 56, 56]⟩
abbrev S32x56x56 : Shape := ⟨3, ![32, 56, 56]⟩
abbrev S32x1x56 : Shape := ⟨3, ![32, 1, 56]⟩
abbrev S32x55x56 : Shape := ⟨3, ![32, 55, 56]⟩
abbrev S32x56x1 : Shape := ⟨3, ![32, 56, 1]⟩
abbrev S32x56x55 : Shape := ⟨3, ![32, 56, 55]⟩
abbrev S1x32x1x56x56 : Shape := ⟨5, ![1, 32, 1, 56, 56]⟩
abbrev S16x64x9x3136 : Shape := ⟨4, ![16, 64, 9, 3136]⟩

abbrev nBuf : Space → Nat
  | .hbm => 4
  | .vmem => 6
  | .smem => 0
  | _ => 0

abbrev bufTy : (tb : Table) → Fin (tcTables nBuf tb) → BufTy
  | .hbm, ⟨0, _⟩ => ⟨S16x64x56x56, .f32⟩
  | .hbm, ⟨1, _⟩ => ⟨S16x64x56x56, .f32⟩
  | .hbm, ⟨2, _⟩ => ⟨S16x64x9x56x56, .f32⟩
  | .hbm, ⟨3, _⟩ => ⟨S16x64x9x3136, .f32⟩
  | .local _ .vmem, ⟨0, _⟩ => ⟨S1x32x56x56, .f32⟩
  | .local _ .vmem, ⟨1, _⟩ => ⟨S1x32x56x56, .f32⟩
  | .local _ .vmem, ⟨2, _⟩ => ⟨S1x32x56x56, .f32⟩
  | .local _ .vmem, ⟨3, _⟩ => ⟨S1x32x56x56, .f32⟩
  | .local _ .vmem, ⟨4, _⟩ => ⟨S1x32x9x56x56, .f32⟩
  | .local _ .vmem, ⟨5, _⟩ => ⟨S1x32x9x56x56, .f32⟩
  | _, _ => ⟨S16x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x9x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x56x56_S1x32x56x56_0_0_0_0 : ∀ a, (![0, 0, 0, 0] : Fin 4 → Nat) a + S1x32x56x56.size a ≤ S1x32x56x56.size a
  h_S1x32x56x56 : 0 < S1x32x56x56.numel
  shapeCasts_S1x32x56x56_S32x56x56 : S1x32x56x56.ShapeCasts S32x56x56
  slices_S32x56x56_o0_1_0_S32x1x56 : S32x56x56.Slices ![0, 1, 0] S32x1x56
  slices_S32x56x56_o0_0_0_S32x55x56 : S32x56x56.Slices ![0, 0, 0] S32x55x56
  concatenates_S32x1x56_S32x55x56_S32x56x56_d1 : Shape.Concatenates [S32x1x56, S32x55x56] S32x56x56 1
  slices_S32x56x56_o0_1_0_S32x55x56 : S32x56x56.Slices ![0, 1, 0] S32x55x56
  slices_S32x56x56_o0_54_0_S32x1x56 : S32x56x56.Slices ![0, 54, 0] S32x1x56
  concatenates_S32x55x56_S32x1x56_S32x56x56_d1 : Shape.Concatenates [S32x55x56, S32x1x56] S32x56x56 1
  slices_S32x56x56_o0_0_1_S32x56x1 : S32x56x56.Slices ![0, 0, 1] S32x56x1
  slices_S32x56x56_o0_0_0_S32x56x55 : S32x56x56.Slices ![0, 0, 0] S32x56x55
  concatenates_S32x56x1_S32x56x55_S32x56x56_d2 : Shape.Concatenates [S32x56x1, S32x56x55] S32x56x56 2
  slices_S32x56x56_o0_0_1_S32x56x55 : S32x56x56.Slices ![0, 0, 1] S32x56x55
  slices_S32x56x56_o0_0_54_S32x56x1 : S32x56x56.Slices ![0, 0, 54] S32x56x1
  concatenates_S32x56x55_S32x56x1_S32x56x56_d2 : Shape.Concatenates [S32x56x55, S32x56x1] S32x56x56 2
  inb_S1x32x9x56x56_S1x32x1x56x56_0_0_0_0_0 : ∀ a, (![0, 0, 0, 0, 0] : Fin 5 → Nat) a + S1x32x1x56x56.size a ≤ S1x32x9x56x56.size a
  h_S1x32x1x56x56 : 0 < S1x32x1x56x56.numel
  shapeCasts_S1x32x1x56x56_S32x56x56 : S1x32x1x56x56.ShapeCasts S32x56x56
  shapeCasts_S32x56x56_S1x32x1x56x56 : S32x56x56.ShapeCasts S1x32x1x56x56
  inb_S1x32x9x56x56_S1x32x1x56x56_0_0_1_0_0 : ∀ a, (![0, 0, 1, 0, 0] : Fin 5 → Nat) a + S1x32x1x56x56.size a ≤ S1x32x9x56x56.size a
  inb_S1x32x9x56x56_S1x32x1x56x56_0_0_2_0_0 : ∀ a, (![0, 0, 2, 0, 0] : Fin 5 → Nat) a + S1x32x1x56x56.size a ≤ S1x32x9x56x56.size a
  inb_S1x32x9x56x56_S1x32x1x56x56_0_0_3_0_0 : ∀ a, (![0, 0, 3, 0, 0] : Fin 5 → Nat) a + S1x32x1x56x56.size a ≤ S1x32x9x56x56.size a
  inb_S1x32x9x56x56_S1x32x1x56x56_0_0_4_0_0 : ∀ a, (![0, 0, 4, 0, 0] : Fin 5 → Nat) a + S1x32x1x56x56.size a ≤ S1x32x9x56x56.size a
  inb_S1x32x9x56x56_S1x32x1x56x56_0_0_5_0_0 : ∀ a, (![0, 0, 5, 0, 0] : Fin 5 → Nat) a + S1x32x1x56x56.size a ≤ S1x32x9x56x56.size a
  inb_S1x32x9x56x56_S1x32x1x56x56_0_0_6_0_0 : ∀ a, (![0, 0, 6, 0, 0] : Fin 5 → Nat) a + S1x32x1x56x56.size a ≤ S1x32x9x56x56.size a
  inb_S1x32x9x56x56_S1x32x1x56x56_0_0_7_0_0 : ∀ a, (![0, 0, 7, 0, 0] : Fin 5 → Nat) a + S1x32x1x56x56.size a ≤ S1x32x9x56x56.size a
  inb_S1x32x9x56x56_S1x32x1x56x56_0_0_8_0_0 : ∀ a, (![0, 0, 8, 0, 0] : Fin 5 → Nat) a + S1x32x1x56x56.size a ≤ S1x32x9x56x56.size a
  shapeCasts_S16x64x9x56x56_S16x64x9x3136 : S16x64x9x56x56.ShapeCasts S16x64x9x3136
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x56x56.size a ≤ S16x64x56x56.size a
  hwx0_0 : ∀ i : grid0.Coords, EltTy.bits .f32 = 32 ∨ (Rect.block (s := S16x64x56x56) S1x32x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x56x56.size a ≤ S16x64x56x56.size a
  hwx0_1 : ∀ i : grid0.Coords, EltTy.bits .f32 = 32 ∨ (Rect.block (s := S16x64x56x56) S1x32x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x9x56x56.size a ≤ S16x64x9x56x56.size a
  hwx0_2 : ∀ i : grid0.Coords, EltTy.bits .f32 = 32 ∨ (Rect.block (s := S16x64x9x56x56) S1x32x9x56x56.size (cc0_transform_2 i) (hinb0_2 i)).WholeWords (EltTy.packing .f32)

variable [Facts₀]

abbrev win0_0 : Pipeline.Window sig grid0 :=
  Pipeline.Window.ofSpec (Memref.whole main_arg0) S1x32x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x9x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x56x56 : Shape := ⟨4, ![16, 64, 56, 56]⟩
abbrev S_ : Shape := ⟨0, ![]⟩
abbrev S16x64x1x56 : Shape := ⟨4, ![16, 64, 1, 56]⟩
abbrev S16x64x57x56 : Shape := ⟨4, ![16, 64, 57, 56]⟩
abbrev S16x64x58x56 : Shape := ⟨4, ![16, 64, 58, 56]⟩
abbrev S16x64x58x1 : Shape := ⟨4, ![16, 64, 58, 1]⟩
abbrev S16x64x58x57 : Shape := ⟨4, ![16, 64, 58, 57]⟩
abbrev S16x64x58x58 : Shape := ⟨4, ![16, 64, 58, 58]⟩
abbrev S16x64x1x56x56 : Shape := ⟨5, ![16, 64, 1, 56, 56]⟩
abbrev S16x64x9x56x56 : Shape := ⟨5, ![16, 64, 9, 56, 56]⟩
abbrev S16x64x1x3136 : Shape := ⟨4, ![16, 64, 1, 3136]⟩
abbrev S16x64x9x3136 : Shape := ⟨4, ![16, 64, 9, 3136]⟩

abbrev nBuf : Space → Nat
  | .hbm => 42
  | .vmem => 0
  | .smem => 0
  | _ => 0

abbrev bufTy : (tb : Table) → Fin (tcTables nBuf tb) → BufTy
  | .hbm, ⟨0, _⟩ => ⟨S16x64x56x56, .f32⟩
  | .hbm, ⟨1, _⟩ => ⟨S16x64x56x56, .f32⟩
  | .hbm, ⟨2, _⟩ => ⟨S_, .i32⟩
  | .hbm, ⟨3, _⟩ => ⟨S16x64x1x56, .f32⟩
  | .hbm, ⟨4, _⟩ => ⟨S16x64x1x56, .f32⟩
  | .hbm, ⟨5, _⟩ => ⟨S16x64x1x56, .f32⟩
  | .hbm, ⟨6, _⟩ => ⟨S16x64x57x56, .f32⟩
  | .hbm, ⟨7, _⟩ => ⟨S16x64x1x56, .f32⟩
  | .hbm, ⟨8, _⟩ => ⟨S16x64x1x56, .f32⟩
  | .hbm, ⟨9, _⟩ => ⟨S16x64x1x56, .f32⟩
  | .hbm, ⟨10, _⟩ => ⟨S16x64x58x56, .f32⟩
  | .hbm, ⟨11, _⟩ => ⟨S16x64x58x1, .f32⟩
  | .hbm, ⟨12, _⟩ => ⟨S16x64x58x1, .f32⟩
  | .hbm, ⟨13, _⟩ => ⟨S16x64x58x1, .f32⟩
  | .hbm, ⟨14, _⟩ => ⟨S16x64x58x57, .f32⟩
  | .hbm, ⟨15, _⟩ => ⟨S16x64x58x1, .f32⟩
  | .hbm, ⟨16, _⟩ => ⟨S16x64x58x1, .f32⟩
  | .hbm, ⟨17, _⟩ => ⟨S16x64x58x1, .f32⟩
  | .hbm, ⟨18, _⟩ => ⟨S16x64x58x58, .f32⟩
  | .hbm, ⟨19, _⟩ => ⟨S16x64x56x56, .f32⟩
  | .hbm, ⟨20, _⟩ => ⟨S16x64x56x56, .f32⟩
  | .hbm, ⟨21, _⟩ => ⟨S16x64x56x56, .f32⟩
  | .hbm, ⟨22, _⟩ => ⟨S16x64x56x56, .f32⟩
  | .hbm, ⟨23, _⟩ => ⟨S16x64x56x56, .f32⟩
  | .hbm, ⟨24, _⟩ => ⟨S16x64x56x56, .f32⟩
  | .hbm, ⟨25, _⟩ => ⟨S16x64x56x56, .f32⟩
  | .hbm, ⟨26, _⟩ => ⟨S16x64x56x56, .f32⟩
  | .hbm, ⟨27, _⟩ => ⟨S16x64x56x56, .f32⟩
  | .hbm, ⟨28, _⟩ => ⟨S16x64x1x56x56, .f32⟩
  | .hbm, ⟨29, _⟩ => ⟨S16x64x1x56x56, .f32⟩
  | .hbm, ⟨30, _⟩ => ⟨S16x64x1x56x56, .f32⟩
  | .hbm, ⟨31, _⟩ => ⟨S16x64x1x56x56, .f32⟩
  | .hbm, ⟨32, _⟩ => ⟨S16x64x1x56x56, .f32⟩
  | .hbm, ⟨33, _⟩ => ⟨S16x64x1x56x56, .f32⟩
  | .hbm, ⟨34, _⟩ => ⟨S16x64x1x56x56, .f32⟩
  | .hbm, ⟨35, _⟩ => ⟨S16x64x1x56x56, .f32⟩
  | .hbm, ⟨36, _⟩ => ⟨S16x64x1x56x56, .f32⟩
  | .hbm, ⟨37, _⟩ => ⟨S16x64x9x56x56, .f32⟩
  | .hbm, ⟨38, _⟩ => ⟨S16x64x1x3136, .f32⟩
  | .hbm, ⟨39, _⟩ => ⟨S16x64x9x3136, .f32⟩
  | .hbm, ⟨40, _⟩ => ⟨S16x64x9x3136, .f32⟩
  | .hbm, ⟨41, _⟩ => ⟨S16x64x9x3136, .f32⟩
  | _, _ => ⟨S16x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  slices_S16x64x56x56_S16x64x1x56_0_0_0_0 : S16x64x56x56.Slices ![0, 0, 0, 0] S16x64x1x56
  slices_S16x64x56x56_S16x64x1x56_0_0_1_0 : S16x64x56x56.Slices ![0, 0, 1, 0] S16x64x1x56
  concatenates_S16x64x1x56_S16x64x56x56_S16x64x57x56_d2 : Shape.Concatenates [S16x64x1x56, S16x64x56x56] S16x64x57x56 2
  slices_S16x64x57x56_S16x64x1x56_0_0_56_0 : S16x64x57x56.Slices ![0, 0, 56, 0] S16x64x1x56
  slices_S16x64x57x56_S16x64x1x56_0_0_55_0 : S16x64x57x56.Slices ![0, 0, 55, 0] S16x64x1x56
  concatenates_S16x64x57x56_S16x64x1x56_S16x64x58x56_d2 : Shape.Concatenates [S16x64x57x56, S16x64x1x56] S16x64x58x56 2
  slices_S16x64x58x56_S16x64x58x1_0_0_0_0 : S16x64x58x56.Slices ![0, 0, 0, 0] S16x64x58x1
  slices_S16x64x58x56_S16x64x58x1_0_0_0_1 : S16x64x58x56.Slices ![0, 0, 0, 1] S16x64x58x1
  concatenates_S16x64x58x1_S16x64x58x56_S16x64x58x57_d3 : Shape.Concatenates [S16x64x58x1, S16x64x58x56] S16x64x58x57 3
  slices_S16x64x58x57_S16x64x58x1_0_0_0_56 : S16x64x58x57.Slices ![0, 0, 0, 56] S16x64x58x1
  slices_S16x64x58x57_S16x64x58x1_0_0_0_55 : S16x64x58x57.Slices ![0, 0, 0, 55] S16x64x58x1
  concatenates_S16x64x58x57_S16x64x58x1_S16x64x58x58_d3 : Shape.Concatenates [S16x64x58x57, S16x64x58x1] S16x64x58x58 3
  slices_S16x64x58x58_S16x64x56x56_0_0_0_0 : S16x64x58x58.Slices ![0, 0, 0, 0] S16x64x56x56
  slices_S16x64x58x58_S16x64x56x56_0_0_0_1 : S16x64x58x58.Slices ![0, 0, 0, 1] S16x64x56x56
  slices_S16x64x58x58_S16x64x56x56_0_0_0_2 : S16x64x58x58.Slices ![0, 0, 0, 2] S16x64x56x56
  slices_S16x64x58x58_S16x64x56x56_0_0_1_0 : S16x64x58x58.Slices ![0, 0, 1, 0] S16x64x56x56
  slices_S16x64x58x58_S16x64x56x56_0_0_1_1 : S16x64x58x58.Slices ![0, 0, 1, 1] S16x64x56x56
  slices_S16x64x58x58_S16x64x56x56_0_0_1_2 : S16x64x58x58.Slices ![0, 0, 1, 2] S16x64x56x56
  slices_S16x64x58x58_S16x64x56x56_0_0_2_0 : S16x64x58x58.Slices ![0, 0, 2, 0] S16x64x56x56
  slices_S16x64x58x58_S16x64x56x56_0_0_2_1 : S16x64x58x58.Slices ![0, 0, 2, 1] S16x64x56x56
  slices_S16x64x58x58_S16x64x56x56_0_0_2_2 : S16x64x58x58.Slices ![0, 0, 2, 2] S16x64x56x56
  bcast_S16x64x56x56_S16x64x1x56x56_0_1_3_4 : S16x64x56x56.BroadcastsInDim S16x64x1x56x56 (![0, 1, 3, 4] : Fin 4 → Fin S16x64x1x56x56.rank)
  concatenates_S16x64x1x56x56_S16x64x1x56x56_S16x64x1x56x56_S16x64x1x56x56_S16x64x1x56x56_S16x64x1x56x56_S16x64x1x56x56_S16x64x1x56x56_S16x64x1x56x56_S16x64x9x56x56_d2 : Shape.Concatenates [S16x64x1x56x56, S16x64x1x56x56, S16x64x1x56x56, S16x64x1x56x56, S16x64x1x56x56, S16x64x1x56x56, S16x64x1x56x56, S16x64x1x56x56, S16x64x1x56x56] S16x64x9x56x56 2
  shapeCasts_S16x64x56x56_S16x64x1x3136 : S16x64x56x56.ShapeCasts S16x64x1x3136
  shapeCasts_S16x64x9x56x56_S16x64x9x3136 : S16x64x9x56x56.ShapeCasts S16x64x9x3136
  bcast_S16x64x1x3136_S16x64x9x3136_0_1_2_3 : S16x64x1x3136.BroadcastsInDim S16x64x9x3136 (![0, 1, 2, 3] : Fin 4 → Fin S16x64x9x3136.rank)

variable [Facts₀]

class Facts : Prop extends Facts₀ where

variable [Facts]
-- ==== Proof.Spec.lean ====
/-
  What both programs compute, as one function of the two argument arrays.

  The arguments are two arrays of shape [16, 64, 56, 56]. A 56-long axis padded by one position at
  each end BY REFLECTION (the border element itself is not repeated) has 58 positions; position `a`
  of the padded axis holds the source coordinate `src a`: 1 at a = 0, 54 at a = 57, and a - 1 in
  between. The nine 3x3 neighbourhood offsets are numbered k = 3 * dy + dx with dy, dx in {0, 1, 2},
  and the patch of offset k at (h, w) is the padded second argument at (h + dy, w + dx), that is the
  second argument itself at (src (h + dy), src (w + dx)).

  The result at (n, c, k, h, w) is the first argument at (n, c, h, w) minus that patch element:
  `stack`, of shape [16, 64, 9, 56, 56]. Both programs return it with the two trailing axes merged,
  p = 56 * h + w: `flat`, of shape [16, 64, 9, 3136]. Merging the axes is a reshape, and a reshape
  keeps row-major positions: `shapeCast_stack`.

  There is one subtraction per element and it has the same two operands in both programs, so no
  law of the extended reals is needed anywhere: everything else in this certificate is which
  element of which array an index names.
-/
import Idealize.ShloMosaic.PureOps.Ideal
import Idealize.ShloMosaic.Lib.ValueIdx
import Idealize.ShloMosaic.Lib.Pipeline.Value

noncomputable section

namespace Cert.Patches

open Idealize.ShloMosaic Idealize.ShloMosaic.ValueIdx

/-- An argument array's shape. -/
abbrev Arg : Shape := ⟨4, ![16, 64, 56, 56]⟩
/-- The nine differences stacked on a new axis 2. -/
abbrev Stack : Shape := ⟨5, ![16, 64, 9, 56, 56]⟩
/-- The same with the two trailing axes merged. -/
abbrev Flat : Shape := ⟨4, ![16, 64, 9, 3136]⟩

/-- The source coordinate held at position `a` of a 56-long axis reflect-padded by one at each end. -/
def src (a : Nat) : Nat := if a = 0 then 1 else if a = 57 then 54 else a - 1

theorem src_lt {a : Nat} (h : a < 58) : src a < 56 := by
  unfold src; split_ifs <;> omega

theorem src_zero : src 0 = 1 := rfl
theorem src_last : src 57 = 54 := rfl
theorem src_mid {a : Nat} (h0 : a ≠ 0) (h1 : a ≠ 57) : src a = a - 1 := by
  unfold src; rw [if_neg h0, if_neg h1]

/-! The coordinates of an index, bounded by the literal extents (so that `omega` can use them). -/

theorem stack_lt0 (j : Stack.Idx) : (j 0).val < 16 := (j 0).isLt
theorem stack_lt1 (j : Stack.Idx) : (j 1).val < 64 := (j 1).isLt
theorem stack_lt2 (j : Stack.Idx) : (j 2).val < 9 := (j 2).isLt
theorem stack_lt3 (j : Stack.Idx) : (j 3).val < 56 := (j 3).isLt
theorem stack_lt4 (j : Stack.Idx) : (j 4).val < 56 := (j 4).isLt
theorem flat_lt0 (i : Flat.Idx) : (i 0).val < 16 := (i 0).isLt
theorem flat_lt1 (i : Flat.Idx) : (i 1).val < 64 := (i 1).isLt
theorem flat_lt2 (i : Flat.Idx) : (i 2).val < 9 := (i 2).isLt
theorem flat_lt3 (i : Flat.Idx) : (i 3).val < 3136 := (i 3).isLt
theorem arg_lt0 (i : Arg.Idx) : (i 0).val < 16 := (i 0).isLt
theorem arg_lt1 (i : Arg.Idx) : (i 1).val < 64 := (i 1).isLt
theorem arg_lt2 (i : Arg.Idx) : (i 2).val < 56 := (i 2).isLt
theorem arg_lt3 (i : Arg.Idx) : (i 3).val < 56 := (i 3).isLt

/-- The row a patch element at row `h` of offset `k` comes from: `src (h + k / 3)`. -/
def srcRow (k h : Nat) (hk : k < 9) (hh : h < 56) : Fin 56 :=
  ⟨src (h + k / 3), src_lt (by omega)⟩
/-- The column a patch element at column `w` of offset `k` comes from: `src (w + k % 3)`. -/
def srcCol (k w : Nat) (hk : k < 9) (hw : w < 56) : Fin 56 :=
  ⟨src (w + k % 3), src_lt (by omega)⟩

theorem srcRow_val (k h : Nat) (hk : k < 9) (hh : h < 56) : (srcRow k h hk hh).val = src (h + k / 3) := rfl
theorem srcCol_val (k w : Nat) (hk : k < 9) (hw : w < 56) : (srcCol k w hk hw).val = src (w + k % 3) := rfl

/-- The stacked differences: at (n, c, k, h, w), `x1 (n, c, h, w) - x2 (n, c, src (h + k / 3), src (w + k % 3))`. -/
def stack (x1 x2 : FVec Ideal Arg .f32) : FVec Ideal Stack .f32 := fun j =>
  x1 (ix4 (j 0) (j 1) (j 3) (j 4))
    - x2 (ix4 (j 0) (j 1) (srcRow (j 2).val (j 3).val (stack_lt2 j) (stack_lt3 j))
        (srcCol (j 2).val (j 4).val (stack_lt2 j) (stack_lt4 j)))

/-- The index of `Stack` that the flat index (n, c, k, p) names: (n, c, k, p / 56, p % 56). -/
def unflat (i : Flat.Idx) : Stack.Idx :=
  ix5 (i 0) (i 1) (i 2) (⟨(i 3).val / 56, by have := flat_lt3 i; omega⟩ : Fin 56)
    (⟨(i 3).val % 56, Nat.mod_lt _ (by norm_num)⟩ : Fin 56)

/-- The result: the stacked differences with the two trailing axes merged, p = 56 * h + w. -/
def flat (x1 x2 : FVec Ideal Arg .f32) : FVec Ideal Flat .f32 := fun i => stack x1 x2 (unflat i)

/-- Merging the two trailing axes of ANY array of the stacked shape reads, at (n, c, k, p), the array at
    (n, c, k, p / 56, p % 56): the two indices have the same row-major position. -/
theorem shapeCast_unflat {α : Type} (y : Stack.Idx → α) (h : Stack.ShapeCasts Flat) (i : Flat.Idx) :
    shapeCast Flat y h i = y (unflat i) := by
  refine shapeCast_apply y h i (unflat i) ?_
  rw [Shape.rowMajor_val_five, Shape.rowMajor_val_four]
  show (((((i 0).val * 64 + (i 1).val) * 9 + (i 2).val) * 56 + (i 3).val / 56) * 56 + (i 3).val % 56)
    = (((i 0).val * 64 + (i 1).val) * 9 + (i 2).val) * 3136 + (i 3).val
  have := flat_lt3 i
  omega

/-- The result is the reshape of the stacked differences. -/
theorem shapeCast_stack (x1 x2 : FVec Ideal Arg .f32) (h : Stack.ShapeCasts Flat) :
    shapeCast Flat (stack x1 x2) h = flat x1 x2 :=
  funext fun i => shapeCast_unflat _ h i

end Cert.Patches

end
-- ==== Proof.KerLayout.lean ====
/-
  A 56 x 56 plane shifted by one position along an axis, with the REFLECTED line filled in at the end
  that the shift uncovers, is what one of the two outer rows (or columns) of a 3 x 3 neighbourhood
  sees. The kernel builds each such plane from two slices of the plane joined along the axis:

    towards the start (offset 0 of the three):  [line 1, lines 0 .. 54]    position h holds line src (h + 0)
    towards the end   (offset 2 of the three):  [lines 1 .. 55, line 54]   position h holds line src (h + 2)

  with `src` the source coordinate of a position of the reflect-padded axis (the specification's), and
  the middle offset is the plane itself: src (h + 1) = h. The same holds along the columns. These are the
  four readings below, each by cases on whether the position falls in the first or the second piece,
  for a stack of 32 planes; then the two changes of shape around the arithmetic, which only add or
  drop axes of extent one.
-/
import proofs.«117780_j56796647522325_1_alg».proof.Proof.Gen.KernelIdeal.Frame
import proofs.«117780_j56796647522325_1_alg».proof.Proof.Spec
import Idealize.ShloMosaic.Lib.Pipeline.Value
import Idealize.ShloMosaic.Lib.ValueIdx
import Idealize.ShloMosaic.Lib.ValueLayout

noncomputable section

namespace Cert.KernelIdeal.KerValue

open Cert.KernelIdeal Idealize.ShloMosaic Idealize.ShloMosaic.ValueIdx Cert.Patches

variable {α : Type}

/-- Two indices with equal coordinates are equal (rank 3). -/
theorem ix3_congr {n0 n1 n2 : Nat} {a a' : Fin n0} {b b' : Fin n1} {c c' : Fin n2}
    (h0 : a.val = a'.val) (h1 : b.val = b'.val) (h2 : c.val = c'.val) : ix3 a b c = ix3 a' b' c' := by
  obtain rfl := Fin.ext h0; obtain rfl := Fin.ext h1; obtain rfl := Fin.ext h2; rfl

/-- Two indices with equal coordinates are equal (rank 4). -/
theorem ix4_congr {n0 n1 n2 n3 : Nat} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  obtain rfl := Fin.ext h0; obtain rfl := Fin.ext h1; obtain rfl := Fin.ext h2; obtain rfl := Fin.ext h3; rfl

/-- The middle offset reads the line itself. -/
theorem src_succ {h : Nat} (hh : h < 56) : src (h + 1) = h := by
  rw [src_mid (by omega) (by omega)]; omega

/-- Rows shifted towards the start: [row 1, rows 0 .. 54] holds, at row h, row `src (h + 0)`. -/
theorem rowsLo_apply (v : S32x56x56.Idx → α)
    (h1 : S32x56x56.Slices ![0, 1, 0] S32x1x56) (h2 : S32x56x56.Slices ![0, 0, 0] S32x55x56)
    (hc : Shape.Concatenates [S32x1x56, S32x55x56] S32x56x56 1) (c : Fin 32) (h w : Fin 56) :
    concatenate S32x56x56 1 [⟨S32x1x56, extractStridedSlice S32x1x56 ![0, 1, 0] v h1⟩,
        ⟨S32x55x56, extractStridedSlice S32x55x56 ![0, 0, 0] v h2⟩] hc (ix3 c h w)
      = v (ix3 c (⟨src (h.val + 0), src_lt (by omega)⟩ : Fin 56) w) := by
  by_cases h0 : h.val = 0
  · refine (concatenate_pair_apply_left (t := S32x56x56) (s₁ := S32x1x56) (s₂ := S32x55x56) (1 : Fin 3) _ _ hc (ix3 c h w) rfl (ix3 c (0 : Fin 1) w) ?_).trans ?_
    · intro b
      match b with
      | ⟨0, _⟩ => rfl
      | ⟨1, _⟩ => show 0 = h.val; omega
      | ⟨2, _⟩ => rfl
    · refine (extractStridedSlice_apply _ v h1 (ix3 c (0 : Fin 1) w) (ix3 c (⟨1, by norm_num⟩ : Fin 56) w) ?_).trans ?_
      · intro a
        match a with
        | ⟨0, _⟩ => show c.val = 0 + c.val; omega
        | ⟨1, _⟩ => show 1 = 1 + 0; rfl
        | ⟨2, _⟩ => show w.val = 0 + w.val; omega
      · exact congrArg v (ix3_congr rfl (by show 1 = src (h.val + 0); rw [h0]; rfl) rfl)
  · have hh : h.val < 56 := h.isLt
    refine (concatenate_pair_apply_right (t := S32x56x56) (s₁ := S32x1x56) (s₂ := S32x55x56) (1 : Fin 3) _ _ hc (ix3 c h w) rfl rfl
      (ix3 c (⟨h.val - 1, by omega⟩ : Fin 55) w) ?_ ?_).trans ?_
    · intro b hb
      match b with
      | ⟨0, _⟩ => rfl
      | ⟨1, _⟩ => exact absurd rfl hb
      | ⟨2, _⟩ => rfl
    · show h.val - 1 + 1 = h.val; omega
    · refine (extractStridedSlice_apply _ v h2 (ix3 c (⟨h.val - 1, by omega⟩ : Fin 55) w)
        (ix3 c (⟨h.val - 1, by omega⟩ : Fin 56) w) ?_).trans ?_
      · intro a
        match a with
        | ⟨0, _⟩ => show c.val = 0 + c.val; omega
        | ⟨1, _⟩ => show h.val - 1 = 0 + (h.val - 1); omega
        | ⟨2, _⟩ => show w.val = 0 + w.val; omega
      · exact congrArg v (ix3_congr rfl (by show h.val - 1 = src (h.val + 0); rw [src_mid (by omega) (by omega)]; omega) rfl)

/-- Rows shifted towards the end: [rows 1 .. 55, row 54] holds, at row h, row `src (h + 2)`. -/
theorem rowsHi_apply (v : S32x56x56.Idx → α)
    (h1 : S32x56x56.Slices ![0, 1, 0] S32x55x56) (h2 : S32x56x56.Slices ![0, 54, 0] S32x1x56)
    (hc : Shape.Concatenates [S32x55x56, S32x1x56] S32x56x56 1) (c : Fin 32) (h w : Fin 56) :
    concatenate S32x56x56 1 [⟨S32x55x56, extractStridedSlice S32x55x56 ![0, 1, 0] v h1⟩,
        ⟨S32x1x56, extractStridedSlice S32x1x56 ![0, 54, 0] v h2⟩] hc (ix3 c h w)
      = v (ix3 c (⟨src (h.val + 2), src_lt (by omega)⟩ : Fin 56) w) := by
  have hh : h.val < 56 := h.isLt
  by_cases h0 : h.val < 55
  · refine (concatenate_pair_apply_left (t := S32x56x56) (s₁ := S32x55x56) (s₂ := S32x1x56) (1 : Fin 3) _ _ hc (ix3 c h w) rfl
      (ix3 c (⟨h.val, h0⟩ : Fin 55) w) ?_).trans ?_
    · intro b
      match b with
      | ⟨0, _⟩ => rfl
      | ⟨1, _⟩ => rfl
      | ⟨2, _⟩ => rfl
    · refine (extractStridedSlice_apply _ v h1 (ix3 c (⟨h.val, h0⟩ : Fin 55) w)
        (ix3 c (⟨h.val + 1, by omega⟩ : Fin 56) w) ?_).trans ?_
      · intro a
        match a with
        | ⟨0, _⟩ => show c.val = 0 + c.val; omega
        | ⟨1, _⟩ => show h.val + 1 = 1 + h.val; omega
        | ⟨2, _⟩ => show w.val = 0 + w.val; omega
      · exact congrArg v (ix3_congr rfl (by show h.val + 1 = src (h.val + 2); rw [src_mid (by omega) (by omega)]; omega) rfl)
  · refine (concatenate_pair_apply_right (t := S32x56x56) (s₁ := S32x55x56) (s₂ := S32x1x56) (1 : Fin 3) _ _ hc (ix3 c h w) rfl rfl
      (ix3 c (0 : Fin 1) w) ?_ ?_).trans ?_
    · intro b hb
      match b with
      | ⟨0, _⟩ => rfl
      | ⟨1, _⟩ => exact absurd rfl hb
      | ⟨2, _⟩ => rfl
    · show 0 + 55 = h.val; omega
    · refine (extractStridedSlice_apply _ v h2 (ix3 c (0 : Fin 1) w) (ix3 c (⟨54, by norm_num⟩ : Fin 56) w) ?_).trans ?_
      · intro a
        match a with
        | ⟨0, _⟩ => show c.val = 0 + c.val; omega
        | ⟨1, _⟩ => show 54 = 54 + 0; rfl
        | ⟨2, _⟩ => show w.val = 0 + w.val; omega
      · exact congrArg v (ix3_congr rfl (by show 54 = src (h.val + 2); rw [show h.val + 2 = 57 by omega]; rfl) rfl)

/-- Columns shifted towards the start: [column 1, columns 0 .. 54] holds, at column w, column `src (w + 0)`. -/
theorem colsLo_apply (v : S32x56x56.Idx → α)
    (h1 : S32x56x56.Slices ![0, 0, 1] S32x56x1) (h2 : S32x56x56.Slices ![0, 0, 0] S32x56x55)
    (hc : Shape.Concatenates [S32x56x1, S32x56x55] S32x56x56 2) (c : Fin 32) (h w : Fin 56) :
    concatenate S32x56x56 2 [⟨S32x56x1, extractStridedSlice S32x56x1 ![0, 0, 1] v h1⟩,
        ⟨S32x56x55, extractStridedSlice S32x56x55 ![0, 0, 0] v h2⟩] hc (ix3 c h w)
      = v (ix3 c h (⟨src (w.val + 0), src_lt (by omega)⟩ : Fin 56)) := by
  have hw : w.val < 56 := w.isLt
  by_cases h0 : w.val = 0
  · refine (concatenate_pair_apply_left (t := S32x56x56) (s₁ := S32x56x1) (s₂ := S32x56x55) (2 : Fin 3) _ _ hc (ix3 c h w) rfl
      (ix3 c h (0 : Fin 1)) ?_).trans ?_
    · intro b
      match b with
      | ⟨0, _⟩ => rfl
      | ⟨1, _⟩ => rfl
      | ⟨2, _⟩ => show 0 = w.val; omega
    · refine (extractStridedSlice_apply _ v h1 (ix3 c h (0 : Fin 1)) (ix3 c h (⟨1, by norm_num⟩ : Fin 56)) ?_).trans ?_
      · intro a
        match a with
        | ⟨0, _⟩ => show c.val = 0 + c.val; omega
        | ⟨1, _⟩ => show h.val = 0 + h.val; omega
        | ⟨2, _⟩ => show 1 = 1 + 0; rfl
      · exact congrArg v (ix3_congr rfl rfl (by show 1 = src (w.val + 0); rw [h0]; rfl))
  · refine (concatenate_pair_apply_right (t := S32x56x56) (s₁ := S32x56x1) (s₂ := S32x56x55) (2 : Fin 3) _ _ hc (ix3 c h w) rfl rfl
      (ix3 c h (⟨w.val - 1, by omega⟩ : Fin 55)) ?_ ?_).trans ?_
    · intro b hb
      match b with
      | ⟨0, _⟩ => rfl
      | ⟨1, _⟩ => rfl
      | ⟨2, _⟩ => exact absurd rfl hb
    · show w.val - 1 + 1 = w.val; omega
    · refine (extractStridedSlice_apply _ v h2 (ix3 c h (⟨w.val - 1, by omega⟩ : Fin 55))
        (ix3 c h (⟨w.val - 1, by omega⟩ : Fin 56)) ?_).trans ?_
      · intro a
        match a with
        | ⟨0, _⟩ => show c.val = 0 + c.val; omega
        | ⟨1, _⟩ => show h.val = 0 + h.val; omega
        | ⟨2, _⟩ => show w.val - 1 = 0 + (w.val - 1); omega
      · exact congrArg v (ix3_congr rfl rfl (by show w.val - 1 = src (w.val + 0); rw [src_mid (by omega) (by omega)]; omega))

/-- Columns shifted towards the end: [columns 1 .. 55, column 54] holds, at column w, column `src (w + 2)`. -/
theorem colsHi_apply (v : S32x56x56.Idx → α)
    (h1 : S32x56x56.Slices ![0, 0, 1] S32x56x55) (h2 : S32x56x56.Slices ![0, 0, 54] S32x56x1)
    (hc : Shape.Concatenates [S32x56x55, S32x56x1] S32x56x56 2) (c : Fin 32) (h w : Fin 56) :
    concatenate S32x56x56 2 [⟨S32x56x55, extractStridedSlice S32x56x55 ![0, 0, 1] v h1⟩,
        ⟨S32x56x1, extractStridedSlice S32x56x1 ![0, 0, 54] v h2⟩] hc (ix3 c h w)
      = v (ix3 c h (⟨src (w.val + 2), src_lt (by omega)⟩ : Fin 56)) := by
  have hw : w.val < 56 := w.isLt
  by_cases h0 : w.val < 55
  · refine (concatenate_pair_apply_left (t := S32x56x56) (s₁ := S32x56x55) (s₂ := S32x56x1) (2 : Fin 3) _ _ hc (ix3 c h w) rfl
      (ix3 c h (⟨w.val, h0⟩ : Fin 55)) ?_).trans ?_
    · intro b
      match b with
      | ⟨0, _⟩ => rfl
      | ⟨1, _⟩ => rfl
      | ⟨2, _⟩ => rfl
    · refine (extractStridedSlice_apply _ v h1 (ix3 c h (⟨w.val, h0⟩ : Fin 55))
        (ix3 c h (⟨w.val + 1, by omega⟩ : Fin 56)) ?_).trans ?_
      · intro a
        match a with
        | ⟨0, _⟩ => show c.val = 0 + c.val; omega
        | ⟨1, _⟩ => show h.val = 0 + h.val; omega
        | ⟨2, _⟩ => show w.val + 1 = 1 + w.val; omega
      · exact congrArg v (ix3_congr rfl rfl (by show w.val + 1 = src (w.val + 2); rw [src_mid (by omega) (by omega)]; omega))
  · refine (concatenate_pair_apply_right (t := S32x56x56) (s₁ := S32x56x55) (s₂ := S32x56x1) (2 : Fin 3) _ _ hc (ix3 c h w) rfl rfl
      (ix3 c h (0 : Fin 1)) ?_ ?_).trans ?_
    · intro b hb
      match b with
      | ⟨0, _⟩ => rfl
      | ⟨1, _⟩ => rfl
      | ⟨2, _⟩ => exact absurd rfl hb
    · show 0 + 55 = w.val; omega
    · refine (extractStridedSlice_apply _ v h2 (ix3 c h (0 : Fin 1)) (ix3 c h (⟨54, by norm_num⟩ : Fin 56)) ?_).trans ?_
      · intro a
        match a with
        | ⟨0, _⟩ => show c.val = 0 + c.val; omega
        | ⟨1, _⟩ => show h.val = 0 + h.val; omega
        | ⟨2, _⟩ => show 54 = 54 + 0; rfl
      · exact congrArg v (ix3_congr rfl rfl (by show 54 = src (w.val + 2); rw [show w.val + 2 = 57 by omega]; rfl))

/-- A stack of planes [32, 56, 56] viewed as [1, 32, 1, 56, 56] reads, at (0, c, 0, h, w), the plane c at (h, w):
    the two indices have the same row-major position. -/
theorem addUnits_apply (v : S32x56x56.Idx → α) (hs : S32x56x56.ShapeCasts S1x32x1x56x56) (x : S1x32x1x56x56.Idx) :
    shapeCast S1x32x1x56x56 v hs x = v (ix3 (x 1) (x 3) (x 4)) := by
  refine shapeCast_apply v hs x (ix3 (x 1) (x 3) (x 4)) ?_
  rw [Shape.rowMajor_val_three, Shape.rowMajor_val_five]
  show ((x 1).val * 56 + (x 3).val) * 56 + (x 4).val
    = ((((x 0).val * 32 + (x 1).val) * 1 + (x 2).val) * 56 + (x 3).val) * 56 + (x 4).val
  have h0 : (x 0).val < 1 := (x 0).isLt
  have h2 : (x 2).val < 1 := (x 2).isLt
  omega

end Cert.KernelIdeal.KerValue

end
-- ==== Proof.KerBody.lean ====
/-
  What the kernel's body leaves in its output block, as ONE function of its two input blocks.

  At a grid point the body holds a block x0 of the first argument and a block x1 of the second, each
  [1, 32, 56, 56] (one image, 32 channels), and writes a block [1, 32, 9, 56, 56] by nine stores, store k
  filling the slab k of axis 2. The value of store k at (0, c, 0, h, w) is

      x0 (0, c, h, w) - x1 (0, c, src (h + dy), src (w + dx)),     dy = k / 3, dx = k % 3:

  the row offset dy picks the rows shifted towards the start, the plane itself, or the rows shifted towards
  the end, and dx does the same along the columns of that (`diffAt`, and one reading per store). So every
  store's value is the restriction to its slab of one function of the block index, `block x0 x1`, and since
  the nine slabs tile the block, the block the body leaves is that function.
-/
import proofs.«117780_j56796647522325_1_alg».proof.Proof.Gen.KernelIdeal.Frame
import proofs.«117780_j56796647522325_1_alg».proof.Proof.KerLayout

noncomputable section

namespace Cert.KernelIdeal.KerValue

open Cert.KernelIdeal Idealize.ShloMosaic Idealize.ShloMosaic.ValueIdx Cert.Patches

theorem slab_lt1 (x : S1x32x1x56x56.Idx) : (x 1).val < 32 := (x 1).isLt
theorem slab_lt2 (x : S1x32x1x56x56.Idx) : (x 2).val < 1 := (x 2).isLt
theorem slab_lt3 (x : S1x32x1x56x56.Idx) : (x 3).val < 56 := (x 3).isLt
theorem slab_lt4 (x : S1x32x1x56x56.Idx) : (x 4).val < 56 := (x 4).isLt
theorem blk_lt1 (y : S1x32x9x56x56.Idx) : (y 1).val < 32 := (y 1).isLt
theorem blk_lt2 (y : S1x32x9x56x56.Idx) : (y 2).val < 9 := (y 2).isLt
theorem blk_lt3 (y : S1x32x9x56x56.Idx) : (y 3).val < 56 := (y 3).isLt
theorem blk_lt4 (y : S1x32x9x56x56.Idx) : (y 4).val < 56 := (y 4).isLt

/-- One store's value at a slab index: the first block's element minus the second block's element at the
    reflected neighbour (dy rows, dx columns into the padded plane). -/
def diffAt (x0 x1 : FVec Ideal S1x32x56x56 .f32) (dy dx : Nat) (hdy : dy < 3) (hdx : dx < 3)
    (x : S1x32x1x56x56.Idx) : Ideal .f32 :=
  x0 (ix4 (0 : Fin 1) (x 1) (x 3) (x 4))
    - x1 (ix4 (0 : Fin 1) (x 1) (⟨src ((x 3).val + dy), src_lt (by have := slab_lt3 x; omega)⟩ : Fin 56)
        (⟨src ((x 4).val + dx), src_lt (by have := slab_lt4 x; omega)⟩ : Fin 56))

/-- The block the body leaves: at (0, c, k, h, w). -/
def block (x0 x1 : FVec Ideal S1x32x56x56 .f32) : FVec Ideal S1x32x9x56x56 .f32 := fun y =>
  x0 (ix4 (0 : Fin 1) (y 1) (y 3) (y 4))
    - x1 (ix4 (0 : Fin 1) (y 1) (srcRow (y 2).val (y 3).val (blk_lt2 y) (blk_lt3 y))
        (srcCol (y 2).val (y 4).val (blk_lt2 y) (blk_lt4 y)))

/-- A block [1, 32, 56, 56] viewed as 32 planes reads, at (c, h, w), the block at (0, c, h, w). -/
theorem planes_apply (x : FVec Ideal S1x32x56x56 .f32) (hs : S1x32x56x56.ShapeCasts S32x56x56) (c : Fin 32) (h w : Fin 56) :
    shapeCast S32x56x56 x hs (ix3 c h w) = x (ix4 (0 : Fin 1) c h w) :=
  shapeCast_1abc_abc_apply x hs c h w

/-! ## The nine stores' values -/

section Stores
variable (x0 x1 : FVec Ideal S1x32x56x56 .f32) (x : S1x32x1x56x56.Idx)

/-- Store 0: rows towards the start, then columns towards the start. -/
theorem store0 : Gen.k0_pay6 x0 x1 x = diffAt x0 x1 0 0 (by norm_num) (by norm_num) x := by
  unfold Gen.k0_pay6 Gen.k0_pay4 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (colsLo_apply _ _ _ _ (x 1) (x 3) (x 4)).trans ?_
  refine (rowsLo_apply _ _ _ _ (x 1) (x 3) _).trans ?_
  exact planes_apply x1 _ _ _ _

/-- Store 1: rows towards the start, the columns as they are. -/
theorem store1 : Gen.k0_pay7 x0 x1 x = diffAt x0 x1 0 1 (by norm_num) (by norm_num) x := by
  unfold Gen.k0_pay7 Gen.k0_pay4 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (rowsLo_apply _ _ _ _ (x 1) (x 3) (x 4)).trans ?_
  refine (planes_apply x1 _ _ _ _).trans ?_
  exact congrArg x1 (ix4_congr rfl rfl rfl (src_succ (slab_lt4 x)).symm)

/-- Store 2: rows towards the start, then columns towards the end. -/
theorem store2 : Gen.k0_pay8 x0 x1 x = diffAt x0 x1 0 2 (by norm_num) (by norm_num) x := by
  unfold Gen.k0_pay8 Gen.k0_pay4 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (colsHi_apply _ _ _ _ (x 1) (x 3) (x 4)).trans ?_
  refine (rowsLo_apply _ _ _ _ (x 1) (x 3) _).trans ?_
  exact planes_apply x1 _ _ _ _

/-- Store 3: the rows as they are, columns towards the start. -/
theorem store3 : Gen.k0_pay11 (Gen.k0_pay2 x0) (Gen.k0_pay9 x1) x = diffAt x0 x1 1 0 (by norm_num) (by norm_num) x := by
  unfold Gen.k0_pay11 Gen.k0_pay9 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (colsLo_apply _ _ _ _ (x 1) (x 3) (x 4)).trans ?_
  refine (planes_apply x1 _ _ _ _).trans ?_
  exact congrArg x1 (ix4_congr rfl rfl (src_succ (slab_lt3 x)).symm rfl)

/-- Store 4: the centre of the neighbourhood, the second block itself. -/
theorem store4 : Gen.k0_pay12 (Gen.k0_pay2 x0) (Gen.k0_pay3 x1) x = diffAt x0 x1 1 1 (by norm_num) (by norm_num) x := by
  unfold Gen.k0_pay12 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (planes_apply x1 _ (x 1) (x 3) (x 4)).trans ?_
  exact congrArg x1 (ix4_congr rfl rfl (src_succ (slab_lt3 x)).symm (src_succ (slab_lt4 x)).symm)

/-- Store 5: the rows as they are, columns towards the end. -/
theorem store5 : Gen.k0_pay13 (Gen.k0_pay2 x0) (Gen.k0_pay3 x1) (Gen.k0_pay10 x1) x
    = diffAt x0 x1 1 2 (by norm_num) (by norm_num) x := by
  unfold Gen.k0_pay13 Gen.k0_pay10 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (colsHi_apply _ _ _ _ (x 1) (x 3) (x 4)).trans ?_
  refine (planes_apply x1 _ _ _ _).trans ?_
  exact congrArg x1 (ix4_congr rfl rfl (src_succ (slab_lt3 x)).symm rfl)

/-- Store 6: rows towards the end, then columns towards the start. -/
theorem store6 : Gen.k0_pay14 (Gen.k0_pay2 x0) (Gen.k0_pay5 x1) x = diffAt x0 x1 2 0 (by norm_num) (by norm_num) x := by
  unfold Gen.k0_pay14 Gen.k0_pay5 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (colsLo_apply _ _ _ _ (x 1) (x 3) (x 4)).trans ?_
  refine (rowsHi_apply _ _ _ _ (x 1) (x 3) _).trans ?_
  exact planes_apply x1 _ _ _ _

/-- Store 7: rows towards the end, the columns as they are. -/
theorem store7 : Gen.k0_pay15 (Gen.k0_pay2 x0) (Gen.k0_pay5 x1) x = diffAt x0 x1 2 1 (by norm_num) (by norm_num) x := by
  unfold Gen.k0_pay15 Gen.k0_pay5 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (rowsHi_apply _ _ _ _ (x 1) (x 3) (x 4)).trans ?_
  refine (planes_apply x1 _ _ _ _).trans ?_
  exact congrArg x1 (ix4_congr rfl rfl rfl (src_succ (slab_lt4 x)).symm)

/-- Store 8: rows towards the end, then columns towards the end. -/
theorem store8 : Gen.k0_pay1 (Gen.k0_pay16 (Gen.k0_pay2 x0) (Gen.k0_pay5 x1)) x
    = diffAt x0 x1 2 2 (by norm_num) (by norm_num) x := by
  unfold Gen.k0_pay1 Gen.k0_pay16 Gen.k0_pay5 Gen.k0_pay3 Gen.k0_pay2 diffAt
  dsimp only
  refine (addUnits_apply _ _ x).trans ((subf_apply _ _ _).trans ?_)
  refine congrArg₂ (· - ·) (planes_apply x0 _ (x 1) (x 3) (x 4)) ?_
  refine (colsHi_apply _ _ _ _ (x 1) (x 3) (x 4)).trans ?_
  refine (rowsHi_apply _ _ _ _ (x 1) (x 3) _).trans ?_
  exact planes_apply x1 _ _ _ _

end Stores

/-- A store's value is the block function on its slab: slab k sits at offset k of axis 2, and its
    row and column offsets are k / 3 and k % 3. -/
theorem diffAt_eq_block (x0 x1 : FVec Ideal S1x32x56x56 .f32) (k : Nat) (hk : k < 9)
    (inb : ∀ a, (![0, 0, k, 0, 0] : Fin 5 → Nat) a + S1x32x1x56x56.size a ≤ S1x32x9x56x56.size a)
    (x : S1x32x1x56x56.Idx) :
    diffAt x0 x1 (k / 3) (k % 3) (by omega) (Nat.mod_lt _ (by norm_num)) x
      = block x0 x1 ((Rect.unit (s := S1x32x9x56x56) ![0, 0, k, 0, 0] S1x32x1x56x56.size inb).emb x) := by
  have h2 := slab_lt2 x
  unfold diffAt block
  refine congrArg₂ (· - ·) (congrArg x0 (ix4_congr rfl ?_ ?_ ?_)) (congrArg x1 (ix4_congr rfl ?_ ?_ ?_))
  · show (x 1).val = 0 + 1 * (x 1).val; omega
  · show (x 3).val = 0 + 1 * (x 3).val; omega
  · show (x 4).val = 0 + 1 * (x 4).val; omega
  · show (x 1).val = 0 + 1 * (x 1).val; omega
  · show src ((x 3).val + k / 3) = src ((0 + 1 * (x 3).val) + (k + 1 * (x 2).val) / 3)
    exact congrArg src (by omega)
  · show src ((x 4).val + k % 3) = src ((0 + 1 * (x 4).val) + (k + 1 * (x 2).val) % 3)
    exact congrArg src (by omega)

theorem zero4 : (![0, 0, 0, 0] : Fin 4 → Nat) = fun _ => 0 := funext fun a => by fin_cases a <;> rfl

/-- THE BLOCK THE BODY LEAVES: its nine stores' values are the block function on the nine slabs, which tile
    the block. -/
theorem out_eq (x0 x1 : Vec Ideal S1x32x56x56 .f32) : Gen.out0_2 x0 x1 = block x0 x1 := by
  funext y
  unfold Gen.out0_2
  have l0 : View.ld x0 Gen.r0_0 = x0 := View.ld_unit_zero zero4 _ x0
  have l1 : View.ld x1 Gen.r0_0 = x1 := View.ld_unit_zero zero4 _ x1
  rw [l0, l1]
  refine View.canon_apply_of_pieces (Val := Elt Ideal) (e := .f32) (block x0 x1) _ ?_ y (Gen.cover0_2 _ _ _ _ _ _ _ _ _ y)
  intro p hp
  simp only [List.mem_cons, List.mem_nil_iff, or_false] at hp
  rcases hp with rfl | rfl | rfl | rfl | rfl | rfl | rfl | rfl | rfl
  · exact fun x => (store8 x0 x1 x).trans (diffAt_eq_block x0 x1 8 (by norm_num) Gen.inb_S1x32x9x56x56_S1x32x1x56x56_0_0_8_0_0 x)
  · exact fun x => (store7 x0 x1 x).trans (diffAt_eq_block x0 x1 7 (by norm_num) Gen.inb_S1x32x9x56x56_S1x32x1x56x56_0_0_7_0_0 x)
  · exact fun x => (store6 x0 x1 x).trans (diffAt_eq_block x0 x1 6 (by norm_num) Gen.inb_S1x32x9x56x56_S1x32x1x56x56_0_0_6_0_0 x)
  · exact fun x => (store5 x0 x1 x).trans (diffAt_eq_block x0 x1 5 (by norm_num) Gen.inb_S1x32x9x56x56_S1x32x1x56x56_0_0_5_0_0 x)
  · exact fun x => (store4 x0 x1 x).trans (diffAt_eq_block x0 x1 4 (by norm_num) Gen.inb_S1x32x9x56x56_S1x32x1x56x56_0_0_4_0_0 x)
  · exact fun x => (store3 x0 x1 x).trans (diffAt_eq_block x0 x1 3 (by norm_num) Gen.inb_S1x32x9x56x56_S1x32x1x56x56_0_0_3_0_0 x)
  · exact fun x => (store2 x0 x1 x).trans (diffAt_eq_block x0 x1 2 (by norm_num) Gen.inb_S1x32x9x56x56_S1x32x1x56x56_0_0_2_0_0 x)
  · exact fun x => (store1 x0 x1 x).trans (diffAt_eq_block x0 x1 1 (by norm_num) Gen.inb_S1x32x9x56x56_S1x32x1x56x56_0_0_1_0_0 x)
  · exact fun x => (store0 x0 x1 x).trans (diffAt_eq_block x0 x1 0 (by norm_num) Gen.inb_S1x32x9x56x56_S1x32x1x56x56_0_0_0_0_0 x)

end Cert.KernelIdeal.KerValue

end
-- ==== Proof.KerBlocks.lean ====
/-
  From the blocks to the array.

  The grid has 16 x 2 points. At point (i, j) each argument window holds block (i, j, 0, 0) of its array
  — image i, channels 32 j .. 32 j + 31, all rows and columns — and the output window writes back block
  (i, j, 0, 0, 0) of the [16, 64, 9, 56, 56] array: the same image and channels, all nine offsets. A block's
  coordinate on an axis is the block index times the block's extent plus the coordinate inside the block, so
  the element the body's block function names at (0, c, k, h, w) of point (i, j) is the element the stacked
  differences name at (i, 32 j + c, k, h, w): what a point writes back is its block of `stack` of the two
  argument arrays (`flushed_eq`). Every index (n, c, k, h, w) lies in the block of the point (n, c / 32)
  (`cover`), and every point writes its block back, so after the last point the array is `stack` of the
  argument arrays (`final`).
-/
import proofs.«117780_j56796647522325_1_alg».proof.Proof.Gen.KernelIdeal.Frame
import proofs.«117780_j56796647522325_1_alg».proof.Proof.KerBody
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.ValueIdx Cert.Patches
open Idealize.ShloMosaic.Pipeline (Dat)

variable (m : (ℓ : Loc nD τ sig) → Buf (Elt Ideal) ℓ) (ρ : Dev nD → PrngReg)

/-- The three index maps over the grid: the argument windows move with the output window on the image and
    channel-block axes, and every other block index is 0. -/
theorem idx_facts : ∀ t : Fin cfg0.N,
    win0_0.index t (0 : Fin 4) = win0_2.index t (0 : Fin 5)
    ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5)
    ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0 :=
  (by decide +kernel : ∀ t : Fin grid0.N, _)

/-- Every (image, channel block) is some point's. -/
theorem idx_onto : ∀ (q0 : Fin 16) (q1 : Fin 2), ∃ t : Fin cfg0.N, win0_2.index t = ![q0.val, q1.val, 0, 0, 0] :=
  (by decide +kernel : ∀ (q0 : Fin 16) (q1 : Fin 2), ∃ t : Fin grid0.N, win0_2.index t = ![q0.val, q1.val, 0, 0, 0])

theorem win_lt0 (j : S1x32x9x56x56.Idx) : (j 0).val < 1 := (j 0).isLt

/-- WHAT POINT `t` WRITES BACK is block `t` of the stacked differences of the argument arrays as the region
    finds them. -/
theorem flushed_eq (c : Dev nD) (t : Fin cfg0.N) :
    (dats m 0 c).flushed 2 t
      = ((cfg0.win 2).blk t).view.read (Elt Ideal) (stack (V m c main_arg0) (V m c main_arg1)) := by
  show (cfg0.win 2).cut (grid0.coords t) ((dats m 0 c).after 2 t) = _
  rw [after0_2]
  have hb := out_eq (iblk m c 0 t) (iblk m c 1 t)
  rw [hb]
  obtain ⟨e00, e01, e02, e03, e10, e11, e12, e13, e22, e23, e24⟩ := idx_facts t
  funext j
  have hj0 := win_lt0 j
  show block (iblk m c 0 t) (iblk m c 1 t) j
    = stack (V m c main_arg0) (V m c main_arg1) (((cfg0.win 2).blk t).view.emb j)
  unfold block stack
  refine congrArg₂ (· - ·) ?_ ?_
  · show V m c main_arg0 (((cfg0.win 0).blk t).view.emb (ix4 (0 : Fin 1) (j 1) (j 3) (j 4))) = _
    refine congrArg (V m c main_arg0) ?_
    funext a; apply Fin.ext
    match a with
    | ⟨0, _⟩ =>
      show win0_0.index t (0 : Fin 4) * 1 + 1 * 0 = win0_2.index t (0 : Fin 5) * 1 + 1 * (j 0).val
      omega
    | ⟨1, _⟩ =>
      show win0_0.index t (1 : Fin 4) * 32 + 1 * (j 1).val = win0_2.index t (1 : Fin 5) * 32 + 1 * (j 1).val
      omega
    | ⟨2, _⟩ =>
      show win0_0.index t (2 : Fin 4) * 56 + 1 * (j 3).val = win0_2.index t (3 : Fin 5) * 56 + 1 * (j 3).val
      omega
    | ⟨3, _⟩ =>
      show win0_0.index t (3 : Fin 4) * 56 + 1 * (j 4).val = win0_2.index t (4 : Fin 5) * 56 + 1 * (j 4).val
      omega
  · show V m c main_arg1 (((cfg0.win 1).blk t).view.emb (ix4 (0 : Fin 1) (j 1)
        (srcRow (j 2).val (j 3).val (blk_lt2 j) (blk_lt3 j)) (srcCol (j 2).val (j 4).val (blk_lt2 j) (blk_lt4 j)))) = _
    refine congrArg (V m c main_arg1) ?_
    funext a; apply Fin.ext
    match a with
    | ⟨0, _⟩ =>
      show win0_1.index t (0 : Fin 4) * 1 + 1 * 0 = win0_2.index t (0 : Fin 5) * 1 + 1 * (j 0).val
      omega
    | ⟨1, _⟩ =>
      show win0_1.index t (1 : Fin 4) * 32 + 1 * (j 1).val = win0_2.index t (1 : Fin 5) * 32 + 1 * (j 1).val
      omega
    | ⟨2, _⟩ =>
      show win0_1.index t (2 : Fin 4) * 56 + 1 * src ((j 3).val + (j 2).val / 3)
        = src ((win0_2.index t (3 : Fin 5) * 56 + 1 * (j 3).val) + (win0_2.index t (2 : Fin 5) * 9 + 1 * (j 2).val) / 3)
      simp only [e12, e22, e23, Nat.zero_mul, Nat.zero_add, Nat.one_mul]
    | ⟨3, _⟩ =>
      show win0_1.index t (3 : Fin 4) * 56 + 1 * src ((j 4).val + (j 2).val % 3)
        = src ((win0_2.index t (4 : Fin 5) * 56 + 1 * (j 4).val) + (win0_2.index t (2 : Fin 5) * 9 + 1 * (j 2).val) % 3)
      simp only [e13, e22, e24, Nat.zero_mul, Nat.zero_add, Nat.one_mul]

/-- An index of the array is in point `t`'s block iff each coordinate is in the block's range on its axis. -/
theorem mem_blk (t : Fin cfg0.N) (i : S16x64x9x56x56.Idx) :
    i ∈ ((cfg0.win 2).blk t).view.set ↔ ∀ a : Fin 5, win0_2.index t a * S1x32x9x56x56.size a ≤ (i a).val
      ∧ (i a).val < win0_2.index t a * S1x32x9x56x56.size a + S1x32x9x56x56.size a := by
  show i ∈ ((View.whole main_v0).slice (win0_2.rect t)).set ↔ _
  rw [View.set_slice_whole, Rect.mem_set_unit]
  exact Iff.rfl

/-- Every index of the array is in the block of the point of its image and channel block, and that point
    writes back. -/
theorem cover (i : S16x64x9x56x56.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 9 := (i 2).isLt
  have h3 : (i 3).val < 56 := (i 3).isLt
  have h4 : (i 4).val < 56 := (i 4).isLt
  obtain ⟨t, ht⟩ := idx_onto ⟨(i 0).val, h0⟩ ⟨(i 1).val / 32, by omega⟩
  have q0 : win0_2.index t (0 : Fin 5) = (i 0).val := congrFun ht 0
  have q1 : win0_2.index t (1 : Fin 5) = (i 1).val / 32 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ =>
    show win0_2.index t (0 : Fin 5) * 1 ≤ (i 0).val ∧ (i 0).val < win0_2.index t (0 : Fin 5) * 1 + 1
    omega
  | ⟨1, _⟩ =>
    show win0_2.index t (1 : Fin 5) * 32 ≤ (i 1).val ∧ (i 1).val < win0_2.index t (1 : Fin 5) * 32 + 32
    omega
  | ⟨2, _⟩ =>
    show win0_2.index t (2 : Fin 5) * 9 ≤ (i 2).val ∧ (i 2).val < win0_2.index t (2 : Fin 5) * 9 + 9
    omega
  | ⟨3, _⟩ =>
    show win0_2.index t (3 : Fin 5) * 56 ≤ (i 3).val ∧ (i 3).val < win0_2.index t (3 : Fin 5) * 56 + 56
    omega
  | ⟨4, _⟩ =>
    show win0_2.index t (4 : Fin 5) * 56 ≤ (i 4).val ∧ (i 4).val < win0_2.index t (4 : Fin 5) * 56 + 56
    omega

/-- THE ARRAY after the last point: the stacked differences of the argument arrays. -/
theorem final (c : Dev nD) :
    (dats m 0 c).arrAt 2 cfg0.N = stack (V m c main_arg0) (V m c main_arg1) :=
  (dats m 0 c).arrAt_eq_of_cover 2 _ (fun t _ => flushed_eq m c t) cover

end Cert.KernelIdeal.KerValue

end
-- ==== Proof.KerRun.lean ====
/-
  The kernel program's result.

  After the region the program has one more line: the region's [16, 64, 9, 56, 56] array with its two trailing
  axes merged into [16, 64, 9, 3136]. The region leaves that array holding the stacked differences of the two
  argument arrays, and merging the axes of the stacked differences is the specification's `flat`. So every
  execution of the program ends with its result at `flat` of the argument arrays, and the argument arrays —
  which the region only reads — as they were.
-/
import proofs.«117780_j56796647522325_1_alg».proof.Proof.Gen.KernelIdeal.Frame
import proofs.«117780_j56796647522325_1_alg».proof.Proof.KerBlocks
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx Cert.Patches Idealize.ShloMosaic.StableHlo

variable (m : (ℓ : Loc nD τ sig) → Buf (Elt Ideal) ℓ) (ρ : Dev nD → PrngReg)

/-- What the line after the region reads: the region's array after the last point, the stacked differences. -/
theorem region_array (c : Dev nD) :
    Pipeline.withArrays (cfgs 0).spec c (V0 m c) (fun w => (dats m 0 c).arrAt w (cfgs 0).N) (Proc.devRef .tc main_v0)
      = stack (m ((c : Thread nD τ).loc main_arg0)) (m ((c : Thread nD τ).loc main_arg1)) :=
  (Pipeline.withArrays_arr spec0 launch0.win.arr_inj c _ _ 2).trans
    ((final m c).trans (by rw [V_main_arg0, V_main_arg1]))

/-- THE RESULT after the line that follows the region: the two trailing axes of the stacked differences merged. -/
theorem tail_eq (c : Dev nD) :
    Pipeline.afterTail₀ cfgs (dats m) 0 (V0 m) [hostOps1] c main_v1
      = flat (m ((c : Thread nD τ).loc main_arg0)) (m ((c : Thread nD τ).loc main_arg1)) := by
  unfold Pipeline.afterTail₀
  show StableHlo.after hostOps1 _ (Proc.devRef .tc main_v1) = _
  after_results
  funext i
  show shapeCast Flat (Pipeline.withArrays (cfgs 0).spec c (V0 m c) (fun w => (dats m 0 c).arrAt w (cfgs 0).N)
      (Proc.devRef .tc main_v0)) shapeCasts_S16x64x9x56x56_S16x64x9x3136 i = _
  refine (shapeCast_unflat _ _ i).trans ?_
  exact congrFun (region_array m c) (unflat i)

/-- THE RUN: every weakly fair execution of the kernel program terminates with its result at `flat` of the
    argument arrays and the argument arrays unchanged. -/
theorem run : θ_run (defs (F := Ideal)) (onTc (τ := τ) (main (F := Ideal))) ⟨m, fun _ => 0, ρ⟩ fun r => ∀ c : Dev nD,
      r.2.mem ((c.tc : Thread nD τ).loc main_v1)
          = flat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KerValue

end
-- ==== Proof.RefRun.lean ====
/-
  The reference program's run, read back.

  Once its calls are inlined, the program is a straight line of forty tensor operations: a scalar
  constant nothing reads; the sixteen operations that pad the second argument by reflection (on the
  row axis and then on the column axis: take the row or column next to the border, reverse it along an
  axis of extent one, and concatenate it outside the border); the nine 56 x 56 windows of the padded
  array at the offsets (dy, dx) with dy, dx in {0, 1, 2}; each window given a new unit axis; the nine
  stacked along that axis; the first argument and the stack with their two trailing axes merged; the
  first argument repeated nine times along the stacking axis; and the subtraction.

  `ops` is that line, `main_eq` says the program is it, and `run_ops` that every weakly fair
  execution terminates with every buffer at the fold of the line over the launch contents.
-/
import proofs.«117780_j56796647522325_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The forty operations, in order: the padding function's sixteen (and, inside them, the four
    reversals) written at the buffers of its one call. -/
abbrev ops : List (HloOp τ sig (Elt F)) :=
  [ nullary main_c (constantI S_ 32 0#32),
    TRef.unary (.of main_arg1 : TRef sig ⟨S16x64x56x56, .f32⟩) main_call0.v0 (extractStridedSlice S16x64x1x56 ![0, 0, 0, 0] · slices_S16x64x56x56_S16x64x1x56_0_0_0_0),
    TRef.unary (.of main_arg1 : TRef sig ⟨S16x64x56x56, .f32⟩) main_call0.v1 (extractStridedSlice S16x64x1x56 ![0, 0, 1, 0] · slices_S16x64x56x56_S16x64x1x56_0_0_1_0),
    TRef.unary main_call0.v1 main_call0.call0.v0 (Host.reverse [2]),
    TRef.binary main_call0.call0.v0 (.of main_arg1 : TRef sig ⟨S16x64x56x56, .f32⟩) main_call0.v3 (fun a b => concatenate S16x64x57x56 2 [⟨S16x64x1x56, a⟩, ⟨S16x64x56x56, b⟩] concatenates_S16x64x1x56_S16x64x56x56_S16x64x57x56_d2),
    TRef.unary main_call0.v3 main_call0.v4 (extractStridedSlice S16x64x1x56 ![0, 0, 56, 0] · slices_S16x64x57x56_S16x64x1x56_0_0_56_0),
    TRef.unary main_call0.v3 main_call0.v5 (extractStridedSlice S16x64x1x56 ![0, 0, 55, 0] · slices_S16x64x57x56_S16x64x1x56_0_0_55_0),
    TRef.unary main_call0.v5 main_call0.call1.v0 (Host.reverse [2]),
    TRef.binary main_call0.v3 main_call0.call1.v0 main_call0.v7 (fun a b => concatenate S16x64x58x56 2 [⟨S16x64x57x56, a⟩, ⟨S16x64x1x56, b⟩] concatenates_S16x64x57x56_S16x64x1x56_S16x64x58x56_d2),
    TRef.unary main_call0.v7 main_call0.v8 (extractStridedSlice S16x64x58x1 ![0, 0, 0, 0] · slices_S16x64x58x56_S16x64x58x1_0_0_0_0),
    TRef.unary main_call0.v7 main_call0.v9 (extractStridedSlice S16x64x58x1 ![0, 0, 0, 1] · slices_S16x64x58x56_S16x64x58x1_0_0_0_1),
    TRef.unary main_call0.v9 main_call0.call2.v0 (Host.reverse [3]),
    TRef.binary main_call0.call2.v0 main_call0.v7 main_call0.v11 (fun a b => concatenate S16x64x58x57 3 [⟨S16x64x58x1, a⟩, ⟨S16x64x58x56, b⟩] concatenates_S16x64x58x1_S16x64x58x56_S16x64x58x57_d3),
    TRef.unary main_call0.v11 main_call0.v12 (extractStridedSlice S16x64x58x1 ![0, 0, 0, 56] · slices_S16x64x58x57_S16x64x58x1_0_0_0_56),
    TRef.unary main_call0.v11 main_call0.v13 (extractStridedSlice S16x64x58x1 ![0, 0, 0, 55] · slices_S16x64x58x57_S16x64x58x1_0_0_0_55),
    TRef.unary main_call0.v13 main_call0.call3.v0 (Host.reverse [3]),
    TRef.binary main_call0.v11 main_call0.call3.v0 main_call0.v15 (fun a b => concatenate S16x64x58x58 3 [⟨S16x64x58x57, a⟩, ⟨S16x64x58x1, b⟩] concatenates_S16x64x58x57_S16x64x58x1_S16x64x58x58_d3),
    unary main_v0 main_v1 ((extractStridedSlice S16x64x56x56 ![0, 0, 0, 0] · slices_S16x64x58x58_S16x64x56x56_0_0_0_0) : (⟨S16x64x58x58, .f32⟩ : BufTy).Contents (Elt F) → (⟨S16x64x56x56, .f32⟩ : BufTy).Contents (Elt F)),
    unary main_v0 main_v2 ((extractStridedSlice S16x64x56x56 ![0, 0, 0, 1] · slices_S16x64x58x58_S16x64x56x56_0_0_0_1) : (⟨S16x64x58x58, .f32⟩ : BufTy).Contents (Elt F) → (⟨S16x64x56x56, .f32⟩ : BufTy).Contents (Elt F)),
    unary main_v0 main_v3 ((extractStridedSlice S16x64x56x56 ![0, 0, 0, 2] · slices_S16x64x58x58_S16x64x56x56_0_0_0_2) : (⟨S16x64x58x58, .f32⟩ : BufTy).Contents (Elt F) → (⟨S16x64x56x56, .f32⟩ : BufTy).Contents (Elt F)),
    unary main_v0 main_v4 ((extractStridedSlice S16x64x56x56 ![0, 0, 1, 0] · slices_S16x64x58x58_S16x64x56x56_0_0_1_0) : (⟨S16x64x58x58, .f32⟩ : BufTy).Contents (Elt F) → (⟨S16x64x56x56, .f32⟩ : BufTy).Contents (Elt F)),
    unary main_v0 main_v5 ((extractStridedSlice S16x64x56x56 ![0, 0, 1, 1] · slices_S16x64x58x58_S16x64x56x56_0_0_1_1) : (⟨S16x64x58x58, .f32⟩ : BufTy).Contents (Elt F) → (⟨S16x64x56x56, .f32⟩ : BufTy).Contents (Elt F)),
    unary main_v0 main_v6 ((extractStridedSlice S16x64x56x56 ![0, 0, 1, 2] · slices_S16x64x58x58_S16x64x56x56_0_0_1_2) : (⟨S16x64x58x58, .f32⟩ : BufTy).Contents (Elt F) → (⟨S16x64x56x56, .f32⟩ : BufTy).Contents (Elt F)),
    unary main_v0 main_v7 ((extractStridedSlice S16x64x56x56 ![0, 0, 2, 0] · slices_S16x64x58x58_S16x64x56x56_0_0_2_0) : (⟨S16x64x58x58, .f32⟩ : BufTy).Contents (Elt F) → (⟨S16x64x56x56, .f32⟩ : BufTy).Contents (Elt F)),
    unary main_v0 main_v8 ((extractStridedSlice S16x64x56x56 ![0, 0, 2, 1] · slices_S16x64x58x58_S16x64x56x56_0_0_2_1) : (⟨S16x64x58x58, .f32⟩ : BufTy).Contents (Elt F) → (⟨S16x64x56x56, .f32⟩ : BufTy).Contents (Elt F)),
    unary main_v0 main_v9 ((extractStridedSlice S16x64x56x56 ![0, 0, 2, 2] · slices_S16x64x58x58_S16x64x56x56_0_0_2_2) : (⟨S16x64x58x58, .f32⟩ : BufTy).Contents (Elt F) → (⟨S16x64x56x56, .f32⟩ : BufTy).Contents (Elt F)),
    unary main_v1 main_v10 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v2 main_v11 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v3 main_v12 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v4 main_v13 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v5 main_v14 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v6 main_v15 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v7 main_v16 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v8 main_v17 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v9 main_v18 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    nary ![main_v10, main_v11, main_v12, main_v13, main_v14, main_v15, main_v16, main_v17, main_v18] main_v19 (fun u => concatenate S16x64x9x56x56 2 [⟨S16x64x1x56x56, u 0⟩, ⟨S16x64x1x56x56, u 1⟩, ⟨S16x64x1x56x56, u 2⟩, ⟨S16x64x1x56x56, u 3⟩, ⟨S16x64x1x56x56, u 4⟩, ⟨S16x64x1x56x56, u 5⟩, ⟨S16x64x1x56x56, u 6⟩, ⟨S16x64x1x56x56, u 7⟩, ⟨S16x64x1x56x56, u 8⟩] concatenates_S16x64x1x56x56_S16x64x1x56x56_S16x64x1x56x56_S16x64x1x56x56_S16x64x1x56x56_S16x64x1x56x56_S16x64x1x56x56_S16x64x1x56x56_S16x64x1x56x56_S16x64x9x56x56_d2),
    reshape main_arg0 main_v20 rfl shapeCasts_S16x64x56x56_S16x64x1x3136,
    reshape main_v19 main_v21 rfl shapeCasts_S16x64x9x56x56_S16x64x9x3136,
    unary main_v20 main_v22 (broadcastInDim S16x64x9x3136 ![0, 1, 2, 3] bcast_S16x64x1x3136_S16x64x9x3136_0_1_2_3 : (⟨S16x64x1x3136, .f32⟩ : BufTy).Contents (Elt F) → (⟨S16x64x9x3136, .f32⟩ : BufTy).Contents (Elt F)),
    binary main_v22 main_v21 main_v23 (subf : (⟨S16x64x9x3136, .f32⟩ : BufTy).Contents (Elt F) → (⟨S16x64x9x3136, .f32⟩ : BufTy).Contents (Elt F) → (⟨S16x64x9x3136, .f32⟩ : BufTy).Contents (Elt F)) ]

-- forty binds re-associated: the rewrite under the chain recurses once per statement
set_option maxRecDepth 1024 in
/-- The program is that straight line: the three functions' bodies unfolded at their calls, both sides
    are one chain of steps once sequencing is re-associated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., nary_bufs_sub ..,
    reshape_bufs_sub .., reshape_bufs_sub .., unary_bufs_sub .., binary_bufs_sub ..⟩

/-- For any float values, from any memory with zero counters: every weakly fair execution of the
    program terminates, and every final state has each buffer at the fold of the forty operations
    over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The term the reference program's run leaves in its result, and what it is at an index.

  The term, as a function of the two argument arrays `x1`, `x2` of shape [16, 64, 56, 56]:

    `padded x2` — `x2` padded by reflection to [16, 64, 58, 58], first on the row axis and then on the
      column axis, each time by taking the row (column) next to the border, reversing it along its own
      axis of extent one, and concatenating it outside the border;
    `stacked x2` — the nine 56 x 56 windows of the padded array at the offsets (dy, dx), dy, dx in
      {0, 1, 2}, each given a new unit axis 2, concatenated along that axis in the order k = 3 * dy + dx;
    `refTerm x1 x2` — `x1` with its two trailing axes merged, repeated nine times along axis 2, minus
      `stacked x2` with its two trailing axes merged.

  Read at an index, every operation above names one element of its operand. Reversing an axis of extent
  one is the identity. A concatenation of two pieces reads the first below its extent and the second
  from it on, so row `a` of the 58 is row 1 at a = 0, row a - 1 for 1 ≤ a ≤ 56, and row 54 at a = 57:
  row `src a`; the columns likewise. Window k at (h, w) is the padded array at (h + k / 3, w + k % 3).
  A merge of the two trailing axes reads (p / 56, p % 56) at p. Hence
  `refTerm x1 x2 (n, c, k, p) = x1 (n, c, p / 56, p % 56) - x2 (n, c, src (p / 56 + k / 3), src (p % 56 + k % 3))`,
  which is the specification's `flat x1 x2`: `refTerm_eq_flat`.
-/
import proofs.«117780_j56796647522325_1_alg».proof.Proof.Gen.ReferenceIdeal
import proofs.«117780_j56796647522325_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic
open Idealize.ShloMosaic.ValueIdx

/-! ## The run's term -/

section Term
variable {α : Type}

/-- The row above the first: row 1 of the array, reversed along the row axis (an axis of extent one). -/
def top (x : S16x64x56x56.Idx → α) : S16x64x1x56.Idx → α :=
  Host.reverse [2] (extractStridedSlice S16x64x1x56 ![0, 0, 1, 0] x slices_S16x64x56x56_S16x64x1x56_0_0_1_0)

/-- That row, then the array: 57 rows. -/
def rows57 (x : S16x64x56x56.Idx → α) : S16x64x57x56.Idx → α :=
  concatenate S16x64x57x56 2 [⟨S16x64x1x56, top x⟩, ⟨S16x64x56x56, x⟩] concatenates_S16x64x1x56_S16x64x56x56_S16x64x57x56_d2

/-- The row below the last: row 55 of the 57 (row 54 of the array), reversed along the row axis. -/
def bottom (x : S16x64x56x56.Idx → α) : S16x64x1x56.Idx → α :=
  Host.reverse [2] (extractStridedSlice S16x64x1x56 ![0, 0, 55, 0] (rows57 x) slices_S16x64x57x56_S16x64x1x56_0_0_55_0)

/-- The 57 rows, then that row: the array padded on the row axis. -/
def rows58 (x : S16x64x56x56.Idx → α) : S16x64x58x56.Idx → α :=
  concatenate S16x64x58x56 2 [⟨S16x64x57x56, rows57 x⟩, ⟨S16x64x1x56, bottom x⟩] concatenates_S16x64x57x56_S16x64x1x56_S16x64x58x56_d2

/-- The column left of the first: column 1, reversed along the column axis (an axis of extent one). -/
def left (x : S16x64x56x56.Idx → α) : S16x64x58x1.Idx → α :=
  Host.reverse [3] (extractStridedSlice S16x64x58x1 ![0, 0, 0, 1] (rows58 x) slices_S16x64x58x56_S16x64x58x1_0_0_0_1)

/-- That column, then the row-padded array: 57 columns. -/
def cols57 (x : S16x64x56x56.Idx → α) : S16x64x58x57.Idx → α :=
  concatenate S16x64x58x57 3 [⟨S16x64x58x1, left x⟩, ⟨S16x64x58x56, rows58 x⟩] concatenates_S16x64x58x1_S16x64x58x56_S16x64x58x57_d3

/-- The column right of the last: column 55 of the 57 (column 54 of the array), reversed along the column axis. -/
def right (x : S16x64x56x56.Idx → α) : S16x64x58x1.Idx → α :=
  Host.reverse [3] (extractStridedSlice S16x64x58x1 ![0, 0, 0, 55] (cols57 x) slices_S16x64x58x57_S16x64x58x1_0_0_0_55)

/-- The array padded by reflection on both axes: 58 rows, 58 columns. -/
def padded (x : S16x64x56x56.Idx → α) : S16x64x58x58.Idx → α :=
  concatenate S16x64x58x58 3 [⟨S16x64x58x57, cols57 x⟩, ⟨S16x64x58x1, right x⟩] concatenates_S16x64x58x57_S16x64x58x1_S16x64x58x58_d3

/-- The 56 x 56 window of a 58 x 58 array at row offset `dy` and column offset `dx`, with a new unit axis 2. -/
def window (dy dx : Nat) (h : S16x64x58x58.Slices ![0, 0, dy, dx] S16x64x56x56) (y : S16x64x58x58.Idx → α) : S16x64x1x56x56.Idx → α :=
  broadcastInDim S16x64x1x56x56 ![0, 1, 3, 4] bcast_S16x64x56x56_S16x64x1x56x56_0_1_3_4
    (extractStridedSlice S16x64x56x56 ![0, 0, dy, dx] y h)

/-- The nine windows of the padded array stacked along axis 2, in the order (0,0), (0,1), (0,2), (1,0), …, (2,2). -/
def stacked (x : S16x64x56x56.Idx → α) : S16x64x9x56x56.Idx → α :=
  concatenate S16x64x9x56x56 2
    [⟨S16x64x1x56x56, window 0 0 slices_S16x64x58x58_S16x64x56x56_0_0_0_0 (padded x)⟩,
     ⟨S16x64x1x56x56, window 0 1 slices_S16x64x58x58_S16x64x56x56_0_0_0_1 (padded x)⟩,
     ⟨S16x64x1x56x56, window 0 2 slices_S16x64x58x58_S16x64x56x56_0_0_0_2 (padded x)⟩,
     ⟨S16x64x1x56x56, window 1 0 slices_S16x64x58x58_S16x64x56x56_0_0_1_0 (padded x)⟩,
     ⟨S16x64x1x56x56, window 1 1 slices_S16x64x58x58_S16x64x56x56_0_0_1_1 (padded x)⟩,
     ⟨S16x64x1x56x56, window 1 2 slices_S16x64x58x58_S16x64x56x56_0_0_1_2 (padded x)⟩,
     ⟨S16x64x1x56x56, window 2 0 slices_S16x64x58x58_S16x64x56x56_0_0_2_0 (padded x)⟩,
     ⟨S16x64x1x56x56, window 2 1 slices_S16x64x58x58_S16x64x56x56_0_0_2_1 (padded x)⟩,
     ⟨S16x64x1x56x56, window 2 2 slices_S16x64x58x58_S16x64x56x56_0_0_2_2 (padded x)⟩]
    concatenates_S16x64x1x56x56_S16x64x1x56x56_S16x64x1x56x56_S16x64x1x56x56_S16x64x1x56x56_S16x64x1x56x56_S16x64x1x56x56_S16x64x1x56x56_S16x64x1x56x56_S16x64x9x56x56_d2

end Term

/-- What the run leaves in the result buffer, as a function of the two arguments: the first with its two
    trailing axes merged and repeated nine times along axis 2, minus the stacked windows of the padded
    second with their two trailing axes merged. -/
def refTerm {F : FTy → Type} [FloatOps F] (x1 x2 : FVec F S16x64x56x56 .f32) : FVec F S16x64x9x3136 .f32 :=
  subf (broadcastInDim S16x64x9x3136 ![0, 1, 2, 3] bcast_S16x64x1x3136_S16x64x9x3136_0_1_2_3
      (shapeCast S16x64x1x3136 x1 shapeCasts_S16x64x56x56_S16x64x1x3136))
    (shapeCast S16x64x9x3136 (stacked x2) shapeCasts_S16x64x9x56x56_S16x64x9x3136)

/-! ## The padded array at an index -/

section Pad
variable {α : Type}

open Cert.Patches (src src_lt)

/-- Reversing axes of extent one changes nothing: on such an axis the only coordinate is 0, its own mirror image. -/
theorem reverse_unit {s : Shape} (axes : List (Fin s.rank)) (h : ∀ a ∈ axes, s.size a = 1) (x : s.Idx → α) :
    Host.reverse axes x = x := by
  funext j
  unfold Host.reverse
  congr 1
  funext a
  split
  · next ha =>
    apply Fin.ext
    have h1 := h a ha
    have h2 := (j a).isLt
    rw [Fin.val_rev]
    omega
  · rfl

/-- Two indices with the same coordinates name the same element. -/
theorem at_congr {n0 n1 n2 n3 : Nat} (x : (⟨4, ![n0, n1, n2, n3]⟩ : Shape).Idx → α) (a : Fin n0) (b : Fin n1) {c c' : Fin n2} {d d' : Fin n3}
    (hc : c.val = c'.val) (hd : d.val = d'.val) : x (ix4 a b c d) = x (ix4 a b c' d') := by
  rw [Fin.ext hc, Fin.ext hd]

theorem top_apply (x : S16x64x56x56.Idx → α) (n : Fin 16) (c : Fin 64) (r : Fin 1) (w : Fin 56) :
    top x (ix4 n c r w) = x (ix4 n c (⟨1, by omega⟩ : Fin 56) w) := by
  unfold top
  refine (congrFun (reverse_unit [2] (fun a ha => by rw [List.mem_singleton.mp ha]; rfl) _) _).trans ?_
  refine extractStridedSlice_apply _ x _ _ _ ?_
  intro a
  match a with
  | ⟨0, _⟩ => show n.val = 0 + n.val; omega
  | ⟨1, _⟩ => show c.val = 0 + c.val; omega
  | ⟨2, _⟩ => show 1 = 1 + r.val; omega
  | ⟨3, _⟩ => show w.val = 0 + w.val; omega

/-- Of the 57 rows, row `a` is the array's row `src a`: row 1 at `a = 0`, row `a - 1` after it. -/
theorem rows57_apply (x : S16x64x56x56.Idx → α) (n : Fin 16) (c : Fin 64) (a : Fin 57) (w : Fin 56) :
    rows57 x (ix4 n c a w) = x (ix4 n c (⟨src a.val, src_lt (by omega)⟩ : Fin 56) w) := by
  unfold rows57
  by_cases h0 : a.val = 0
  · refine (concatenate_pair_apply_left 2 (top x) x _ (ix4 n c a w) rfl (ix4 n c (⟨0, by omega⟩ : Fin 1) w) ?_).trans ?_
    · intro b
      match b with
      | ⟨0, _⟩ => rfl
      | ⟨1, _⟩ => rfl
      | ⟨2, _⟩ => exact h0.symm
      | ⟨3, _⟩ => rfl
    · refine (top_apply x n c _ w).trans (at_congr x n c ?_ rfl)
      show 1 = src a.val
      rw [h0]; rfl
  · refine (concatenate_pair_apply_right 2 (top x) x _ (ix4 n c a w) rfl rfl (ix4 n c (⟨a.val - 1, by omega⟩ : Fin 56) w) ?_ ?_).trans ?_
    · intro b hb
      match b with
      | ⟨0, _⟩ => rfl
      | ⟨1, _⟩ => rfl
      | ⟨2, _⟩ => exact absurd rfl hb
      | ⟨3, _⟩ => rfl
    · show a.val - 1 + 1 = a.val
      omega
    · refine at_congr x n c ?_ rfl
      show a.val - 1 = src a.val
      rw [Cert.Patches.src_mid h0 (by omega)]

theorem bottom_apply (x : S16x64x56x56.Idx → α) (n : Fin 16) (c : Fin 64) (r : Fin 1) (w : Fin 56) :
    bottom x (ix4 n c r w) = x (ix4 n c (⟨54, by omega⟩ : Fin 56) w) := by
  unfold bottom
  refine (congrFun (reverse_unit [2] (fun a ha => by rw [List.mem_singleton.mp ha]; rfl) _) _).trans ?_
  refine (extractStridedSlice_apply _ (rows57 x) _ _ (ix4 n c (⟨55, by omega⟩ : Fin 57) w) ?_).trans ?_
  · intro a
    match a with
    | ⟨0, _⟩ => show n.val = 0 + n.val; omega
    | ⟨1, _⟩ => show c.val = 0 + c.val; omega
    | ⟨2, _⟩ => show 55 = 55 + r.val; omega
    | ⟨3, _⟩ => show w.val = 0 + w.val; omega
  · exact (rows57_apply x n c _ w).trans (at_congr x n c rfl rfl)

/-- Row `a` of the row-padded array is the array's row `src a`. -/
theorem rows58_apply (x : S16x64x56x56.Idx → α) (n : Fin 16) (c : Fin 64) (a : Fin 58) (w : Fin 56) :
    rows58 x (ix4 n c a w) = x (ix4 n c (⟨src a.val, src_lt a.isLt⟩ : Fin 56) w) := by
  unfold rows58
  by_cases h : a.val < 57
  · refine (concatenate_pair_apply_left 2 (rows57 x) (bottom x) _ (ix4 n c a w) rfl (ix4 n c (⟨a.val, h⟩ : Fin 57) w) ?_).trans ?_
    · intro b
      match b with
      | ⟨0, _⟩ => rfl
      | ⟨1, _⟩ => rfl
      | ⟨2, _⟩ => rfl
      | ⟨3, _⟩ => rfl
    · exact (rows57_apply x n c _ w).trans (at_congr x n c rfl rfl)
  · have h57 : a.val = 57 := by omega
    refine (concatenate_pair_apply_right 2 (rows57 x) (bottom x) _ (ix4 n c a w) rfl rfl (ix4 n c (⟨0, by omega⟩ : Fin 1) w) ?_ ?_).trans ?_
    · intro b hb
      match b with
      | ⟨0, _⟩ => rfl
      | ⟨1, _⟩ => rfl
      | ⟨2, _⟩ => exact absurd rfl hb
      | ⟨3, _⟩ => rfl
    · show 0 + 57 = a.val
      omega
    · refine (bottom_apply x n c _ w).trans (at_congr x n c ?_ rfl)
      show 54 = src a.val
      rw [h57]; rfl

theorem left_apply (x : S16x64x56x56.Idx → α) (n : Fin 16) (c : Fin 64) (a : Fin 58) (r : Fin 1) :
    left x (ix4 n c a r) = rows58 x (ix4 n c a (⟨1, by omega⟩ : Fin 56)) := by
  unfold left
  refine (congrFun (reverse_unit [3] (fun a ha => by rw [List.mem_singleton.mp ha]; rfl) _) _).trans ?_
  refine extractStridedSlice_apply _ (rows58 x) _ _ _ ?_
  intro b
  match b with
  | ⟨0, _⟩ => show n.val = 0 + n.val; omega
  | ⟨1, _⟩ => show c.val = 0 + c.val; omega
  | ⟨2, _⟩ => show a.val = 0 + a.val; omega
  | ⟨3, _⟩ => show 1 = 1 + r.val; omega

/-- Of the 57 columns, column `b` is the row-padded array's column `src b`. -/
theorem cols57_apply (x : S16x64x56x56.Idx → α) (n : Fin 16) (c : Fin 64) (a : Fin 58) (b : Fin 57) :
    cols57 x (ix4 n c a b) = rows58 x (ix4 n c a (⟨src b.val, src_lt (by omega)⟩ : Fin 56)) := by
  unfold cols57
  by_cases h0 : b.val = 0
  · refine (concatenate_pair_apply_left 3 (left x) (rows58 x) _ (ix4 n c a b) rfl (ix4 n c a (⟨0, by omega⟩ : Fin 1)) ?_).trans ?_
    · intro e
      match e with
      | ⟨0, _⟩ => rfl
      | ⟨1, _⟩ => rfl
      | ⟨2, _⟩ => rfl
      | ⟨3, _⟩ => exact h0.symm
    · refine (left_apply x n c a _).trans (at_congr (rows58 x) n c rfl ?_)
      show 1 = src b.val
      rw [h0]; rfl
  · refine (concatenate_pair_apply_right 3 (left x) (rows58 x) _ (ix4 n c a b) rfl rfl (ix4 n c a (⟨b.val - 1, by omega⟩ : Fin 56)) ?_ ?_).trans ?_
    · intro e he
      match e with
      | ⟨0, _⟩ => rfl
      | ⟨1, _⟩ => rfl
      | ⟨2, _⟩ => rfl
      | ⟨3, _⟩ => exact absurd rfl he
    · show b.val - 1 + 1 = b.val
      omega
    · refine at_congr (rows58 x) n c rfl ?_
      show b.val - 1 = src b.val
      rw [Cert.Patches.src_mid h0 (by omega)]

theorem right_apply (x : S16x64x56x56.Idx → α) (n : Fin 16) (c : Fin 64) (a : Fin 58) (r : Fin 1) :
    right x (ix4 n c a r) = rows58 x (ix4 n c a (⟨54, by omega⟩ : Fin 56)) := by
  unfold right
  refine (congrFun (reverse_unit [3] (fun a ha => by rw [List.mem_singleton.mp ha]; rfl) _) _).trans ?_
  refine (extractStridedSlice_apply _ (cols57 x) _ _ (ix4 n c a (⟨55, by omega⟩ : Fin 57)) ?_).trans ?_
  · intro b
    match b with
    | ⟨0, _⟩ => show n.val = 0 + n.val; omega
    | ⟨1, _⟩ => show c.val = 0 + c.val; omega
    | ⟨2, _⟩ => show a.val = 0 + a.val; omega
    | ⟨3, _⟩ => show 55 = 55 + r.val; omega
  · exact (cols57_apply x n c a _).trans (at_congr (rows58 x) n c rfl rfl)

/-- The padded array at row `a`, column `b` is the array at row `src a`, column `src b`. -/
theorem padded_apply (x : S16x64x56x56.Idx → α) (n : Fin 16) (c : Fin 64) (a b : Fin 58) :
    padded x (ix4 n c a b) = x (ix4 n c (⟨src a.val, src_lt a.isLt⟩ : Fin 56) (⟨src b.val, src_lt b.isLt⟩ : Fin 56)) := by
  refine Eq.trans ?_ (rows58_apply x n c a _)
  unfold padded
  by_cases h : b.val < 57
  · refine (concatenate_pair_apply_left 3 (cols57 x) (right x) _ (ix4 n c a b) rfl (ix4 n c a (⟨b.val, h⟩ : Fin 57)) ?_).trans ?_
    · intro e
      match e with
      | ⟨0, _⟩ => rfl
      | ⟨1, _⟩ => rfl
      | ⟨2, _⟩ => rfl
      | ⟨3, _⟩ => rfl
    · exact (cols57_apply x n c a _).trans (at_congr (rows58 x) n c rfl rfl)
  · have h57 : b.val = 57 := by omega
    refine (concatenate_pair_apply_right 3 (cols57 x) (right x) _ (ix4 n c a b) rfl rfl (ix4 n c a (⟨0, by omega⟩ : Fin 1)) ?_ ?_).trans ?_
    · intro e he
      match e with
      | ⟨0, _⟩ => rfl
      | ⟨1, _⟩ => rfl
      | ⟨2, _⟩ => rfl
      | ⟨3, _⟩ => exact absurd rfl he
    · show 0 + 57 = b.val
      omega
    · refine (right_apply x n c a _).trans (at_congr (rows58 x) n c rfl ?_)
      show 54 = src b.val
      rw [h57]; rfl

end Pad

/-! ## The stacked windows at an index -/

section Stack
variable {α : Type}

open Cert.Patches (src src_lt)

/-- A window at (h, w) is the array at (h + dy, w + dx). -/
theorem window_apply (dy dx : Nat) (hs : S16x64x58x58.Slices ![0, 0, dy, dx] S16x64x56x56) (hdy : dy ≤ 2) (hdx : dx ≤ 2)
    (y : S16x64x58x58.Idx → α) (n : Fin 16) (c : Fin 64) (z : Fin 1) (h w : Fin 56) :
    window dy dx hs y (ix5 n c z h w)
      = y (ix4 n c (⟨h.val + dy, by omega⟩ : Fin 58) (⟨w.val + dx, by omega⟩ : Fin 58)) := by
  unfold window
  refine (broadcastInDim_apply _ _ _ (ix5 n c z h w) (ix4 n c h w) ?_).trans ?_
  · intro a
    match a with
    | ⟨0, _⟩ => rfl
    | ⟨1, _⟩ => rfl
    | ⟨2, _⟩ => rfl
    | ⟨3, _⟩ => rfl
  · refine extractStridedSlice_apply _ y hs (ix4 n c h w) _ ?_
    intro a
    match a with
    | ⟨0, _⟩ => show n.val = 0 + n.val; omega
    | ⟨1, _⟩ => show c.val = 0 + c.val; omega
    | ⟨2, _⟩ => show h.val + dy = dy + h.val; omega
    | ⟨3, _⟩ => show w.val + dx = dx + w.val; omega

/-- Window number `k` of the stack, whatever it is: the stack at (n, c, k, h, w) is that window at (n, c, 0, h, w). -/
theorem stacked_piece (x : S16x64x56x56.Idx → α) (n : Fin 16) (c : Fin 64) (h w : Fin 56)
    (k : Nat) (hk : k < 9) (p : S16x64x1x56x56.Idx → α)
    (hxk : ([⟨S16x64x1x56x56, window 0 0 slices_S16x64x58x58_S16x64x56x56_0_0_0_0 (padded x)⟩,
     ⟨S16x64x1x56x56, window 0 1 slices_S16x64x58x58_S16x64x56x56_0_0_0_1 (padded x)⟩,
     ⟨S16x64x1x56x56, window 0 2 slices_S16x64x58x58_S16x64x56x56_0_0_0_2 (padded x)⟩,
     ⟨S16x64x1x56x56, window 1 0 slices_S16x64x58x58_S16x64x56x56_0_0_1_0 (padded x)⟩,
     ⟨S16x64x1x56x56, window 1 1 slices_S16x64x58x58_S16x64x56x56_0_0_1_1 (padded x)⟩,
     ⟨S16x64x1x56x56, window 1 2 slices_S16x64x58x58_S16x64x56x56_0_0_1_2 (padded x)⟩,
     ⟨S16x64x1x56x56, window 2 0 slices_S16x64x58x58_S16x64x56x56_0_0_2_0 (padded x)⟩,
     ⟨S16x64x1x56x56, window 2 1 slices_S16x64x58x58_S16x64x56x56_0_0_2_1 (padded x)⟩,
     ⟨S16x64x1x56x56, window 2 2 slices_S16x64x58x58_S16x64x56x56_0_0_2_2 (padded x)⟩] : List ((s : Shape) × (s.Idx → α)))[k]'(by simpa using hk)
       = ⟨S16x64x1x56x56, p⟩)
    (hpre : (((([⟨S16x64x1x56x56, window 0 0 slices_S16x64x58x58_S16x64x56x56_0_0_0_0 (padded x)⟩,
     ⟨S16x64x1x56x56, window 0 1 slices_S16x64x58x58_S16x64x56x56_0_0_0_1 (padded x)⟩,
     ⟨S16x64x1x56x56, window 0 2 slices_S16x64x58x58_S16x64x56x56_0_0_0_2 (padded x)⟩,
     ⟨S16x64x1x56x56, window 1 0 slices_S16x64x58x58_S16x64x56x56_0_0_1_0 (padded x)⟩,
     ⟨S16x64x1x56x56, window 1 1 slices_S16x64x58x58_S16x64x56x56_0_0_1_1 (padded x)⟩,
     ⟨S16x64x1x56x56, window 1 2 slices_S16x64x58x58_S16x64x56x56_0_0_1_2 (padded x)⟩,
     ⟨S16x64x1x56x56, window 2 0 slices_S16x64x58x58_S16x64x56x56_0_0_2_0 (padded x)⟩,
     ⟨S16x64x1x56x56, window 2 1 slices_S16x64x58x58_S16x64x56x56_0_0_2_1 (padded x)⟩,
     ⟨S16x64x1x56x56, window 2 2 slices_S16x64x58x58_S16x64x56x56_0_0_2_2 (padded x)⟩] : List ((s : Shape) × (s.Idx → α))).take k).map (·.1)).map
        fun s => if h : s.rank = S16x64x9x56x56.rank then s.size ((2 : Fin S16x64x9x56x56.rank).cast h.symm) else 0).sum = k) :
    stacked x (ix5 n c (⟨k, hk⟩ : Fin 9) h w) = p (ix5 n c (⟨0, by omega⟩ : Fin 1) h w) := by
  unfold stacked
  refine concatenate_apply_piece 2 _ _ (ix5 n c (⟨k, hk⟩ : Fin 9) h w) k (by simpa using hk) S16x64x1x56x56 p hxk rfl k hpre
    (ix5 n c (⟨0, by omega⟩ : Fin 1) h w) ?_ ?_
  · intro b hb
    match b with
    | ⟨0, _⟩ => rfl
    | ⟨1, _⟩ => rfl
    | ⟨2, _⟩ => exact absurd rfl hb
    | ⟨3, _⟩ => rfl
    | ⟨4, _⟩ => rfl
  · show k + 0 = k
    omega

/-- The stack at (n, c, k, h, w) is the array at (n, c, src (h + k / 3), src (w + k % 3)). -/
theorem stacked_apply (x : S16x64x56x56.Idx → α) (n : Fin 16) (c : Fin 64) (k : Fin 9) (h w : Fin 56) :
    stacked x (ix5 n c k h w)
      = x (ix4 n c (⟨src (h.val + k.val / 3), src_lt (by have := k.isLt; omega)⟩ : Fin 56)
          (⟨src (w.val + k.val % 3), src_lt (by have := k.isLt; omega)⟩ : Fin 56)) := by
  match k with
  | ⟨0, hk⟩ =>
    exact (stacked_piece x n c h w 0 hk _ rfl rfl).trans ((window_apply 0 0 _ (by omega) (by omega) (padded x) n c _ h w).trans
      ((padded_apply x n c _ _).trans (at_congr x n c
        (by simp) (by simp))))
  | ⟨1, hk⟩ =>
    exact (stacked_piece x n c h w 1 hk _ rfl rfl).trans ((window_apply 0 1 _ (by omega) (by omega) (padded x) n c _ h w).trans
      ((padded_apply x n c _ _).trans (at_congr x n c
        (by simp) (by simp))))
  | ⟨2, hk⟩ =>
    exact (stacked_piece x n c h w 2 hk _ rfl rfl).trans ((window_apply 0 2 _ (by omega) (by omega) (padded x) n c _ h w).trans
      ((padded_apply x n c _ _).trans (at_congr x n c
        (by simp) (by simp))))
  | ⟨3, hk⟩ =>
    exact (stacked_piece x n c h w 3 hk _ rfl rfl).trans ((window_apply 1 0 _ (by omega) (by omega) (padded x) n c _ h w).trans
      ((padded_apply x n c _ _).trans (at_congr x n c
        (by simp) (by simp))))
  | ⟨4, hk⟩ =>
    exact (stacked_piece x n c h w 4 hk _ rfl rfl).trans ((window_apply 1 1 _ (by omega) (by omega) (padded x) n c _ h w).trans
      ((padded_apply x n c _ _).trans (at_congr x n c
        (by simp) (by simp))))
  | ⟨5, hk⟩ =>
    exact (stacked_piece x n c h w 5 hk _ rfl rfl).trans ((window_apply 1 2 _ (by omega) (by omega) (padded x) n c _ h w).trans
      ((padded_apply x n c _ _).trans (at_congr x n c
        (by simp) (by simp))))
  | ⟨6, hk⟩ =>
    exact (stacked_piece x n c h w 6 hk _ rfl rfl).trans ((window_apply 2 0 _ (by omega) (by omega) (padded x) n c _ h w).trans
      ((padded_apply x n c _ _).trans (at_congr x n c
        (by simp) (by simp))))
  | ⟨7, hk⟩ =>
    exact (stacked_piece x n c h w 7 hk _ rfl rfl).trans ((window_apply 2 1 _ (by omega) (by omega) (padded x) n c _ h w).trans
      ((padded_apply x n c _ _).trans (at_congr x n c
        (by simp) (by simp))))
  | ⟨8, hk⟩ =>
    exact (stacked_piece x n c h w 8 hk _ rfl rfl).trans ((window_apply 2 2 _ (by omega) (by omega) (padded x) n c _ h w).trans
      ((padded_apply x n c _ _).trans (at_congr x n c
        (by simp) (by simp))))

end Stack

/-! ## The run's term is the specification -/

open Cert.Patches in
/-- The run's term at (n, c, k, p): the first argument's merged axes split back into (p / 56, p % 56), the
    stack's likewise, and the stack read at its index. -/
theorem refTerm_apply (x1 x2 : FVec Ideal S16x64x56x56 .f32) (a : Fin 16) (b : Fin 64) (k : Fin 9) (p : Fin 3136) :
    refTerm x1 x2 (ix4 a b k p)
      = x1 (ix4 a b (⟨p.val / 56, by have := p.isLt; omega⟩ : Fin 56) (⟨p.val % 56, Nat.mod_lt _ (by norm_num)⟩ : Fin 56))
        - x2 (ix4 a b (srcRow k.val (p.val / 56) k.isLt (by have := p.isLt; omega))
            (srcCol k.val (p.val % 56) k.isLt (Nat.mod_lt _ (by norm_num)))) := by
  have hp := p.isLt
  have e1 : broadcastInDim S16x64x9x3136 ![0, 1, 2, 3] bcast_S16x64x1x3136_S16x64x9x3136_0_1_2_3
        (shapeCast S16x64x1x3136 x1 shapeCasts_S16x64x56x56_S16x64x1x3136) (ix4 a b k p)
      = x1 (ix4 a b (⟨p.val / 56, by omega⟩ : Fin 56) (⟨p.val % 56, Nat.mod_lt _ (by norm_num)⟩ : Fin 56)) := by
    refine (broadcastInDim_apply _ _ _ (ix4 a b k p) (ix4 a b (⟨0, by omega⟩ : Fin 1) p) ?_).trans ?_
    · intro e
      match e with
      | ⟨0, _⟩ => rfl
      | ⟨1, _⟩ => rfl
      | ⟨2, _⟩ => rfl
      | ⟨3, _⟩ => rfl
    · refine shapeCast_apply x1 _ _ _ ?_
      rw [Shape.rowMajor_val_four, Shape.rowMajor_val_four]
      show ((a.val * 64 + b.val) * 56 + p.val / 56) * 56 + p.val % 56
        = ((a.val * 64 + b.val) * 1 + 0) * 3136 + p.val
      omega
  have e2 : shapeCast S16x64x9x3136 (stacked x2) shapeCasts_S16x64x9x56x56_S16x64x9x3136 (ix4 a b k p)
      = x2 (ix4 a b (srcRow k.val (p.val / 56) k.isLt (by omega))
          (srcCol k.val (p.val % 56) k.isLt (Nat.mod_lt _ (by norm_num)))) :=
    (shapeCast_unflat (stacked x2) _ (ix4 a b k p)).trans
      (stacked_apply x2 a b k (⟨p.val / 56, by omega⟩ : Fin 56) (⟨p.val % 56, Nat.mod_lt _ (by norm_num)⟩ : Fin 56))
  show broadcastInDim S16x64x9x3136 ![0, 1, 2, 3] bcast_S16x64x1x3136_S16x64x9x3136_0_1_2_3
        (shapeCast S16x64x1x3136 x1 shapeCasts_S16x64x56x56_S16x64x1x3136) (ix4 a b k p)
      - shapeCast S16x64x9x3136 (stacked x2) shapeCasts_S16x64x9x56x56_S16x64x9x3136 (ix4 a b k p) = _
  rw [e1, e2]

/-- The run's term is the specification's function of the two arguments. -/
theorem refTerm_eq_flat (x1 x2 : FVec Ideal S16x64x56x56 .f32) : refTerm x1 x2 = Cert.Patches.flat x1 x2 := by
  funext i
  obtain ⟨a, b, k, p, rfl⟩ : ∃ (a : Fin 16) (b : Fin 64) (k : Fin 9) (p : Fin 3136), i = ix4 a b k p :=
    ⟨i 0, i 1, i 2, i 3, eq_ix4 i⟩
  rw [refTerm_apply]
  rfl

end Cert.ReferenceIdeal.RefValue

end
-- ==== Proof.RefRead.lean ====
/-
  The reference program's run ends at the specification.

  The fold of the forty operations (RefRun.lean) at the result buffer is the term `refTerm` of the two
  arguments' launch contents (RefTerm.lean) — the fold read stretch by stretch, each operation writing
  its own buffer and leaving the others —, and that term is the specification's `flat`. The two
  argument buffers are written by no operation.
-/
import proofs.«117780_j56796647522325_1_alg».proof.Proof.RefRun
import proofs.«117780_j56796647522325_1_alg».proof.Proof.RefTerm
import proofs.«117780_j56796647522325_1_alg».proof.Proof.Spec
import Idealize.ShloMosaic.Lib.Pipeline.Value
import Idealize.ShloMosaic.Lib.ValueIdx
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The fold of the forty operations at the result buffer

Read in three stretches — the padding, the nine windows, the stacking and the subtraction — each over
whatever the buffers held before it. -/

section Fold
variable {F : FTy → Type} [FloatOps F]

/-- The constant and the padding function's sixteen operations. -/
abbrev opsPad : List (HloOp τ sig (Elt F)) :=
  [ nullary main_c (constantI S_ 32 0#32),
    TRef.unary (.of main_arg1 : TRef sig ⟨S16x64x56x56, .f32⟩) main_call0.v0 (extractStridedSlice S16x64x1x56 ![0, 0, 0, 0] · slices_S16x64x56x56_S16x64x1x56_0_0_0_0),
    TRef.unary (.of main_arg1 : TRef sig ⟨S16x64x56x56, .f32⟩) main_call0.v1 (extractStridedSlice S16x64x1x56 ![0, 0, 1, 0] · slices_S16x64x56x56_S16x64x1x56_0_0_1_0),
    TRef.unary main_call0.v1 main_call0.call0.v0 (Host.reverse [2]),
    TRef.binary main_call0.call0.v0 (.of main_arg1 : TRef sig ⟨S16x64x56x56, .f32⟩) main_call0.v3 (fun a b => concatenate S16x64x57x56 2 [⟨S16x64x1x56, a⟩, ⟨S16x64x56x56, b⟩] concatenates_S16x64x1x56_S16x64x56x56_S16x64x57x56_d2),
    TRef.unary main_call0.v3 main_call0.v4 (extractStridedSlice S16x64x1x56 ![0, 0, 56, 0] · slices_S16x64x57x56_S16x64x1x56_0_0_56_0),
    TRef.unary main_call0.v3 main_call0.v5 (extractStridedSlice S16x64x1x56 ![0, 0, 55, 0] · slices_S16x64x57x56_S16x64x1x56_0_0_55_0),
    TRef.unary main_call0.v5 main_call0.call1.v0 (Host.reverse [2]),
    TRef.binary main_call0.v3 main_call0.call1.v0 main_call0.v7 (fun a b => concatenate S16x64x58x56 2 [⟨S16x64x57x56, a⟩, ⟨S16x64x1x56, b⟩] concatenates_S16x64x57x56_S16x64x1x56_S16x64x58x56_d2),
    TRef.unary main_call0.v7 main_call0.v8 (extractStridedSlice S16x64x58x1 ![0, 0, 0, 0] · slices_S16x64x58x56_S16x64x58x1_0_0_0_0),
    TRef.unary main_call0.v7 main_call0.v9 (extractStridedSlice S16x64x58x1 ![0, 0, 0, 1] · slices_S16x64x58x56_S16x64x58x1_0_0_0_1),
    TRef.unary main_call0.v9 main_call0.call2.v0 (Host.reverse [3]),
    TRef.binary main_call0.call2.v0 main_call0.v7 main_call0.v11 (fun a b => concatenate S16x64x58x57 3 [⟨S16x64x58x1, a⟩, ⟨S16x64x58x56, b⟩] concatenates_S16x64x58x1_S16x64x58x56_S16x64x58x57_d3),
    TRef.unary main_call0.v11 main_call0.v12 (extractStridedSlice S16x64x58x1 ![0, 0, 0, 56] · slices_S16x64x58x57_S16x64x58x1_0_0_0_56),
    TRef.unary main_call0.v11 main_call0.v13 (extractStridedSlice S16x64x58x1 ![0, 0, 0, 55] · slices_S16x64x58x57_S16x64x58x1_0_0_0_55),
    TRef.unary main_call0.v13 main_call0.call3.v0 (Host.reverse [3]),
    TRef.binary main_call0.v11 main_call0.call3.v0 main_call0.v15 (fun a b => concatenate S16x64x58x58 3 [⟨S16x64x58x57, a⟩, ⟨S16x64x58x1, b⟩] concatenates_S16x64x58x57_S16x64x58x1_S16x64x58x58_d3) ]

/-- The nine windows of the padded array, and each with its new unit axis. -/
abbrev opsCut : List (HloOp τ sig (Elt F)) :=
  [ unary main_v0 main_v1 ((extractStridedSlice S16x64x56x56 ![0, 0, 0, 0] · slices_S16x64x58x58_S16x64x56x56_0_0_0_0) : (⟨S16x64x58x58, .f32⟩ : BufTy).Contents (Elt F) → (⟨S16x64x56x56, .f32⟩ : BufTy).Contents (Elt F)),
    unary main_v0 main_v2 ((extractStridedSlice S16x64x56x56 ![0, 0, 0, 1] · slices_S16x64x58x58_S16x64x56x56_0_0_0_1) : (⟨S16x64x58x58, .f32⟩ : BufTy).Contents (Elt F) → (⟨S16x64x56x56, .f32⟩ : BufTy).Contents (Elt F)),
    unary main_v0 main_v3 ((extractStridedSlice S16x64x56x56 ![0, 0, 0, 2] · slices_S16x64x58x58_S16x64x56x56_0_0_0_2) : (⟨S16x64x58x58, .f32⟩ : BufTy).Contents (Elt F) → (⟨S16x64x56x56, .f32⟩ : BufTy).Contents (Elt F)),
    unary main_v0 main_v4 ((extractStridedSlice S16x64x56x56 ![0, 0, 1, 0] · slices_S16x64x58x58_S16x64x56x56_0_0_1_0) : (⟨S16x64x58x58, .f32⟩ : BufTy).Contents (Elt F) → (⟨S16x64x56x56, .f32⟩ : BufTy).Contents (Elt F)),
    unary main_v0 main_v5 ((extractStridedSlice S16x64x56x56 ![0, 0, 1, 1] · slices_S16x64x58x58_S16x64x56x56_0_0_1_1) : (⟨S16x64x58x58, .f32⟩ : BufTy).Contents (Elt F) → (⟨S16x64x56x56, .f32⟩ : BufTy).Contents (Elt F)),
    unary main_v0 main_v6 ((extractStridedSlice S16x64x56x56 ![0, 0, 1, 2] · slices_S16x64x58x58_S16x64x56x56_0_0_1_2) : (⟨S16x64x58x58, .f32⟩ : BufTy).Contents (Elt F) → (⟨S16x64x56x56, .f32⟩ : BufTy).Contents (Elt F)),
    unary main_v0 main_v7 ((extractStridedSlice S16x64x56x56 ![0, 0, 2, 0] · slices_S16x64x58x58_S16x64x56x56_0_0_2_0) : (⟨S16x64x58x58, .f32⟩ : BufTy).Contents (Elt F) → (⟨S16x64x56x56, .f32⟩ : BufTy).Contents (Elt F)),
    unary main_v0 main_v8 ((extractStridedSlice S16x64x56x56 ![0, 0, 2, 1] · slices_S16x64x58x58_S16x64x56x56_0_0_2_1) : (⟨S16x64x58x58, .f32⟩ : BufTy).Contents (Elt F) → (⟨S16x64x56x56, .f32⟩ : BufTy).Contents (Elt F)),
    unary main_v0 main_v9 ((extractStridedSlice S16x64x56x56 ![0, 0, 2, 2] · slices_S16x64x58x58_S16x64x56x56_0_0_2_2) : (⟨S16x64x58x58, .f32⟩ : BufTy).Contents (Elt F) → (⟨S16x64x56x56, .f32⟩ : BufTy).Contents (Elt F)),
    unary main_v1 main_v10 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v2 main_v11 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v3 main_v12 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v4 main_v13 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v5 main_v14 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v6 main_v15 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v7 main_v16 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v8 main_v17 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v9 main_v18 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)) ]

/-- The stacking, the two merges of the trailing axes, the repetition of the first argument, the subtraction. -/
abbrev opsEnd : List (HloOp τ sig (Elt F)) :=
  [ nary ![main_v10, main_v11, main_v12, main_v13, main_v14, main_v15, main_v16, main_v17, main_v18] main_v19 (fun u => concatenate S16x64x9x56x56 2 [⟨S16x64x1x56x56, u 0⟩, ⟨S16x64x1x56x56, u 1⟩, ⟨S16x64x1x56x56, u 2⟩, ⟨S16x64x1x56x56, u 3⟩, ⟨S16x64x1x56x56, u 4⟩, ⟨S16x64x1x56x56, u 5⟩, ⟨S16x64x1x56x56, u 6⟩, ⟨S16x64x1x56x56, u 7⟩, ⟨S16x64x1x56x56, u 8⟩] concatenates_S16x64x1x56x56_S16x64x1x56x56_S16x64x1x56x56_S16x64x1x56x56_S16x64x1x56x56_S16x64x1x56x56_S16x64x1x56x56_S16x64x1x56x56_S16x64x1x56x56_S16x64x9x56x56_d2),
    reshape main_arg0 main_v20 rfl shapeCasts_S16x64x56x56_S16x64x1x3136,
    reshape main_v19 main_v21 rfl shapeCasts_S16x64x9x56x56_S16x64x9x3136,
    unary main_v20 main_v22 (broadcastInDim S16x64x9x3136 ![0, 1, 2, 3] bcast_S16x64x1x3136_S16x64x9x3136_0_1_2_3 : (⟨S16x64x1x3136, .f32⟩ : BufTy).Contents (Elt F) → (⟨S16x64x9x3136, .f32⟩ : BufTy).Contents (Elt F)),
    binary main_v22 main_v21 main_v23 (subf : (⟨S16x64x9x3136, .f32⟩ : BufTy).Contents (Elt F) → (⟨S16x64x9x3136, .f32⟩ : BufTy).Contents (Elt F) → (⟨S16x64x9x3136, .f32⟩ : BufTy).Contents (Elt F)) ]

theorem ops_split : (ops : List (HloOp τ sig (Elt F))) = opsPad ++ (opsCut ++ opsEnd) := rfl

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

attribute [local irreducible] Host.reverse concatenate extractStridedSlice broadcastInDim shapeCast

theorem pad_v0 (V : Valuation τ sig (Elt F)) :
    after opsPad V (main_v0 : DevRef τ sig) = padded (V (main_arg1 : DevRef τ sig)) := by
  simp (disch := decide) only [after_cons, after_nil, nullary_result', unary_result', binary_result',
    nullary_result_ne', unary_result_ne', binary_result_ne']
  rfl

theorem pad_arg0 (V : Valuation τ sig (Elt F)) :
    after opsPad V (main_arg0 : DevRef τ sig) = V (main_arg0 : DevRef τ sig) := by
  simp (disch := decide) only [after_cons, after_nil, nullary_result_ne', unary_result_ne', binary_result_ne']

theorem cut_v10 (W : Valuation τ sig (Elt F)) :
    after opsCut W (main_v10 : DevRef τ sig) = window 0 0 slices_S16x64x58x58_S16x64x56x56_0_0_0_0 (W (main_v0 : DevRef τ sig)) := by
  simp (disch := decide) only [after_cons, after_nil, unary_result', unary_result_ne']
  rfl

theorem cut_v11 (W : Valuation τ sig (Elt F)) :
    after opsCut W (main_v11 : DevRef τ sig) = window 0 1 slices_S16x64x58x58_S16x64x56x56_0_0_0_1 (W (main_v0 : DevRef τ sig)) := by
  simp (disch := decide) only [after_cons, after_nil, unary_result', unary_result_ne']
  rfl

theorem cut_v12 (W : Valuation τ sig (Elt F)) :
    after opsCut W (main_v12 : DevRef τ sig) = window 0 2 slices_S16x64x58x58_S16x64x56x56_0_0_0_2 (W (main_v0 : DevRef τ sig)) := by
  simp (disch := decide) only [after_cons, after_nil, unary_result', unary_result_ne']
  rfl

theorem cut_v13 (W : Valuation τ sig (Elt F)) :
    after opsCut W (main_v13 : DevRef τ sig) = window 1 0 slices_S16x64x58x58_S16x64x56x56_0_0_1_0 (W (main_v0 : DevRef τ sig)) := by
  simp (disch := decide) only [after_cons, after_nil, unary_result', unary_result_ne']
  rfl

theorem cut_v14 (W : Valuation τ sig (Elt F)) :
    after opsCut W (main_v14 : DevRef τ sig) = window 1 1 slices_S16x64x58x58_S16x64x56x56_0_0_1_1 (W (main_v0 : DevRef τ sig)) := by
  simp (disch := decide) only [after_cons, after_nil, unary_result', unary_result_ne']
  rfl

theorem cut_v15 (W : Valuation τ sig (Elt F)) :
    after opsCut W (main_v15 : DevRef τ sig) = window 1 2 slices_S16x64x58x58_S16x64x56x56_0_0_1_2 (W (main_v0 : DevRef τ sig)) := by
  simp (disch := decide) only [after_cons, after_nil, unary_result', unary_result_ne']
  rfl

theorem cut_v16 (W : Valuation τ sig (Elt F)) :
    after opsCut W (main_v16 : DevRef τ sig) = window 2 0 slices_S16x64x58x58_S16x64x56x56_0_0_2_0 (W (main_v0 : DevRef τ sig)) := by
  simp (disch := decide) only [after_cons, after_nil, unary_result', unary_result_ne']
  rfl

theorem cut_v17 (W : Valuation τ sig (Elt F)) :
    after opsCut W (main_v17 : DevRef τ sig) = window 2 1 slices_S16x64x58x58_S16x64x56x56_0_0_2_1 (W (main_v0 : DevRef τ sig)) := by
  simp (disch := decide) only [after_cons, after_nil, unary_result', unary_result_ne']
  rfl

theorem cut_v18 (W : Valuation τ sig (Elt F)) :
    after opsCut W (main_v18 : DevRef τ sig) = window 2 2 slices_S16x64x58x58_S16x64x56x56_0_0_2_2 (W (main_v0 : DevRef τ sig)) := by
  simp (disch := decide) only [after_cons, after_nil, unary_result', unary_result_ne']
  rfl

theorem cut_arg0 (W : Valuation τ sig (Elt F)) :
    after opsCut W (main_arg0 : DevRef τ sig) = W (main_arg0 : DevRef τ sig) := by
  simp (disch := decide) only [after_cons, after_nil, unary_result_ne']

theorem end_v23 (X : Valuation τ sig (Elt F)) :
    after opsEnd X (main_v23 : DevRef τ sig)
      = subf (broadcastInDim S16x64x9x3136 ![0, 1, 2, 3] bcast_S16x64x1x3136_S16x64x9x3136_0_1_2_3
          (shapeCast S16x64x1x3136 (X (main_arg0 : DevRef τ sig)) shapeCasts_S16x64x56x56_S16x64x1x3136))
        (shapeCast S16x64x9x3136
          (concatenate S16x64x9x56x56 2
            [⟨S16x64x1x56x56, X (main_v10 : DevRef τ sig)⟩, ⟨S16x64x1x56x56, X (main_v11 : DevRef τ sig)⟩,
             ⟨S16x64x1x56x56, X (main_v12 : DevRef τ sig)⟩, ⟨S16x64x1x56x56, X (main_v13 : DevRef τ sig)⟩,
             ⟨S16x64x1x56x56, X (main_v14 : DevRef τ sig)⟩, ⟨S16x64x1x56x56, X (main_v15 : DevRef τ sig)⟩,
             ⟨S16x64x1x56x56, X (main_v16 : DevRef τ sig)⟩, ⟨S16x64x1x56x56, X (main_v17 : DevRef τ sig)⟩,
             ⟨S16x64x1x56x56, X (main_v18 : DevRef τ sig)⟩]
            concatenates_S16x64x1x56x56_S16x64x1x56x56_S16x64x1x56x56_S16x64x1x56x56_S16x64x1x56x56_S16x64x1x56x56_S16x64x1x56x56_S16x64x1x56x56_S16x64x1x56x56_S16x64x9x56x56_d2)
          shapeCasts_S16x64x9x56x56_S16x64x9x3136) := by
  simp (disch := decide) only [after_cons, after_nil, Matrix.cons_val, unary_result', binary_result', reshape_result', nary_result',
    unary_result_ne', binary_result_ne', reshape_result_ne', nary_result_ne']
  rfl

/-- The result buffer after the forty operations holds the run's term of the two arguments. -/
theorem term_eq (V : Valuation τ sig (Elt F)) :
    after ops V (main_v23 : DevRef τ sig) = refTerm (V (main_arg0 : DevRef τ sig)) (V (main_arg1 : DevRef τ sig)) := by
  rw [ops_split, after_append, after_append, end_v23, cut_arg0, pad_arg0,
    cut_v10, cut_v11, cut_v12, cut_v13, cut_v14, cut_v15, cut_v16, cut_v17, cut_v18, pad_v0]
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

end Fold

/-! ## The run -/

/-- At the ideal instance, from any memory with zero counters: every weakly fair execution of the
    reference program terminates with its result buffer at the specification's function of the two
    arguments' launch contents, and the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
          = Cert.Patches.flat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans ((term_eq _).trans (refTerm_eq_flat _ _)),
      (h c main_arg0).trans (arg0_eq _),
      (h c main_arg1).trans (arg1_eq _)⟩)
    (run_ops m ρ)

end Cert.ReferenceIdeal.RefValue

end
-- ==== Proof.lean ====
/- The claim of this certificate: the kernel program and its reference compute the same array.

   Both programs take two arrays x1, x2 of shape [16, 64, 56, 56] and return, at (n, c, k, p) of a
   [16, 64, 9, 3136] array with k = 3 dy + dx and p = 56 h + w,

       x1 (n, c, h, w) - x2 (n, c, src (h + dy), src (w + dx)),

   the difference between an element of the first array and the element of the second at offset (dy - 1, dx - 1)
   in its 3 x 3 neighbourhood, the second array reflect-padded by one at the border (`src`: Proof/Spec.lean).
   The kernel computes it block by block — 32 channels of one image per grid point, the nine shifted planes built
   from slices of the block (Proof/KerLayout.lean, Proof/KerBody.lean), the blocks tiling the array
   (Proof/KerBlocks.lean), a final merge of the two trailing axes (Proof/KerRun.lean); the reference pads the
   whole second array, cuts the nine windows out of it, stacks and flattens them and subtracts
   (Proof/RefRun.lean, Proof/RefRead.lean). One subtraction per element, of the same two operands on both sides:
   the claims below only put the two runs side by side.

   The three frame claims are the programs' runs with the result dropped; the kernel's idealization rewrote
   nothing, so there is nothing to preserve; and the two idealized programs, run from memories that agree on the
   arguments, both end with their result at the specification's `flat` of those arguments. -/
import proofs.«117780_j56796647522325_1_alg».proof.Defs
import proofs.«117780_j56796647522325_1_alg».proof.Proof.Gen.Kernel
import proofs.«117780_j56796647522325_1_alg».proof.Proof.Gen.Kernel.Frame
import proofs.«117780_j56796647522325_1_alg».proof.Proof.Gen.KernelIdeal
import proofs.«117780_j56796647522325_1_alg».proof.Proof.Gen.KernelIdeal.Frame
import proofs.«117780_j56796647522325_1_alg».proof.Proof.Gen.ReferenceIdeal
import proofs.«117780_j56796647522325_1_alg».proof.Proof.Gen.Pre_finite_inputs
import proofs.«117780_j56796647522325_1_alg».proof.Proof.KerRun
import proofs.«117780_j56796647522325_1_alg».proof.Proof.RefRead
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.RefValue.run m ρ)

/-- Run from memories that agree on the two arguments, the idealized kernel program and the idealized reference
    both end with their result at `Cert.Patches.flat` of the arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
